-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S16384x768 : Shape := ⟨2, ![16384, 768]⟩
abbrev S16384x1 : Shape := ⟨2, ![16384, 1]⟩
abbrev S512x768 : Shape := ⟨2, ![512, 768]⟩
abbrev S512 : Shape := ⟨1, ![512]⟩
abbrev S1x1 : Shape := ⟨2, ![1, 1]⟩
abbrev S1 : Shape := ⟨1, ![1]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S16384x768 : S_.BroadcastsInDim S16384x768 (![] : Fin 0 → Fin S16384x768.rank)
  reducesTo_S16384x768_S_d0_1 : S16384x768.ReducesTo [0, 1] S_
  bcast_S_S16384x1 : S_.BroadcastsInDim S16384x1 (![] : Fin 0 → Fin S16384x1.rank)
  reducesTo_S16384x1_S_d0_1 : S16384x1.ReducesTo [0, 1] S_
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512 .f32) (main_arg5 : FVec F S1x1 .f32) (main_arg6 : FVec F S1 .f32) (main_v13 : IVec S_ 1) (main_v16 : IVec S512x768 1) : IVec S_ 1 :=
  let main_c_5 : IVec S_ 1 := constantI S_ 1 1#1
  let main_v17 : IVec S_ 1 := (fun x v => Host.reduce IntOp.andi x v reducesTo_S512x768_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S8192x768 .f32) (main_arg1 : FVec F S16384x768 .f32) (main_arg2 : FVec F S16384x1 .f32) (main_arg3 : FVec F S512x768 .f32) (main_arg4 : FVec F S512 .f32) (main_arg5 : FVec F S1x1 .f32) (main_arg6 : FVec F S1 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S16384x768 .f32 := Host.absf main_arg1
  let main_cst_0 : FVec F S_ .f32 := constant S_ .f32 0x7F800000#32
  let main_v5 : FVec F S16384x768 .f32 := broadcastInDim S16384x768 ![] bcast_S_S16384x768 main_cst_0
  let main_v6 : IVec S16384x768 1 := cmpf .olt main_v4 main_v5
  let main_c_1 : IVec S_ 1 := constantI S_ 1 1#1
  let main_v7 : IVec S_ 1 := (fun x v => Host.reduce IntOp.andi x v reducesTo_S16384x768_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S512x768 .f32 := Host.absf main_arg3
  let main_cst_4 : FVec F S_ .f32 := constant S_ .f32 0x7F800000#32
  let main_v15 : FVec F S512x768 .f32 := broadcastInDim S512x768 ![] bcast_S_S512x768 main_cst_4
  let main_v16 : IVec S512x768 1 := cmpf .olt main_v14 main_v15
  fn_part1 (F := F) main_arg4 main_arg5 main_arg6 main_v13 main_v16
-- ==== Kernel.lean ====
abbrev S8192x768 : Shape := ⟨2, ![8192, 768]⟩
abbrev S16384x768 : Shape := ⟨2, ![16384, 768]⟩
abbrev S16384x1 : Shape := ⟨2, ![16384, 1]⟩
abbrev S512x768 : Shape := ⟨2, ![512, 768]⟩
abbrev S512 : Shape := ⟨1, ![512]⟩
abbrev S1x1 : Shape := ⟨2, ![1, 1]⟩
abbrev S1 : Shape := ⟨1, ![1]⟩
abbrev S_ : Shape := ⟨0, ![]⟩
abbrev S1x16384 : Shape := ⟨2, ![1, 16384]⟩
abbrev S8192x512 : Shape := ⟨2, ![8192, 512]⟩
abbrev S2048x768 : Shape := ⟨2, ![2048, 768]⟩
abbrev S2048x512 : Shape := ⟨2, ![2048, 512]⟩
abbrev S1x512 : Shape := ⟨2, ![1, 512]⟩
abbrev S2048 : Shape := ⟨1, ![2048]⟩
abbrev S2048x1 : Shape := ⟨2, ![2048, 1]⟩
abbrev S16384x512 : Shape := ⟨2, ![16384, 512]⟩
abbrev S8192x1 : Shape := ⟨2, ![8192, 1]⟩
abbrev S1024x512 : Shape := ⟨2, ![1024, 512]⟩
abbrev S1x1024 : Shape := ⟨2, ![1, 1024]⟩
abbrev S2048x128 : Shape := ⟨2, ![2048, 128]⟩
abbrev S2048x1024 : Shape := ⟨2, ![2048, 1024]⟩
abbrev S2048x8x128 : Shape := ⟨3, ![2048, 8, 128]⟩

abbrev nBuf : Space → Nat
  | .hbm => 17
  | .vmem => 23
  | .smem => 0
  | _ => 0

abbrev bufTy : (tb : Table) → Fin (tcTables nBuf tb) → BufTy
  | .hbm, ⟨0, _⟩ => ⟨S8192x768, .f32⟩
  | .hbm, ⟨1, _⟩ => ⟨S16384x768, .f32⟩
  | .hbm, ⟨2, _⟩ => ⟨S16384x1, .f32⟩
  | .hbm, ⟨3, _⟩ => ⟨S512x768, .f32⟩
  | .hbm, ⟨4, _⟩ => ⟨S512, .f32⟩
  | .hbm, ⟨5, _⟩ => ⟨S1x1, .f32⟩
  | .hbm, ⟨6, _⟩ => ⟨S1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S1x16384, .f32⟩
  | .hbm, ⟨14, _⟩ => ⟨S8192x512, .bf16⟩
  | .hbm, ⟨15, _⟩ => ⟨S16384x512, .bf16⟩
  | .hbm, ⟨16, _⟩ => ⟨S8192x1, .f32⟩
  | .local _ .vmem, ⟨0, _⟩ => ⟨S2048x768, .f32⟩
  | .local _ .vmem, ⟨1, _⟩ => ⟨S2048x768, .f32⟩
  | .local _ .vmem, ⟨2, _⟩ => ⟨S512x768, .f32⟩
  | .local _ .vmem, ⟨3, _⟩ => ⟨S512, .f32⟩
  | .local _ .vmem, ⟨4, _⟩ => ⟨S2048x512, .bf16⟩
  | .local _ .vmem, ⟨5, _⟩ => ⟨S2048x512, .bf16⟩
  | .local _ .vmem, ⟨6, _⟩ => ⟨S2048x768, .f32⟩
  | .local _ .vmem, ⟨7, _⟩ => ⟨S2048x768, .f32⟩
  | .local _ .vmem, ⟨8, _⟩ => ⟨S512x768, .f32⟩
  | .local _ .vmem, ⟨9, _⟩ => ⟨S512, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1024x512, .bf16⟩
  | .local _ .vmem, ⟨15, _⟩ => ⟨S1024x512, .bf16⟩
  | .local _ .vmem, ⟨16, _⟩ => ⟨S1x1024, .f32⟩
  | .local _ .vmem, ⟨17, _⟩ => ⟨S1x1024, .f32⟩
  | .local _ .vmem, ⟨18, _⟩ => ⟨S1x1, .f32⟩
  | .local _ .vmem, ⟨19, _⟩ => ⟨S1, .f32⟩
  | .local _ .vmem, ⟨20, _⟩ => ⟨S2048x1, .f32⟩
  | .local _ .vmem, ⟨21, _⟩ => ⟨S2048x1, .f32⟩
  | .local _ .vmem, ⟨22, _⟩ => ⟨S2048x128, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 16], ![false, false]⟩

def k2_cond2 (i : grid2.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_11 : BitVec 32 := 0#32
  let v23 : BitVec 1 := Scalar.cmpi .ne v22 c0_i32_11
  v23

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S2048x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

class Facts₀ : Prop where
  bcast_S_S16384x1 : S_.BroadcastsInDim S16384x1 (![] : Fin 0 → Fin S16384x1.rank)
  shapeCasts_S16384x1_S1x16384 : S16384x1.ShapeCasts S1x16384
  inb_S2048x768_S2048x768_0_0 : ∀ a, (![0, 0] : Fin 2 → Nat) a + S2048x768.size a ≤ S2048x768.size a
  h_S2048x768 : 0 < S2048x768.numel
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  inb_S2048x512_S2048x512_0_0 : ∀ a, (![0, 0] : Fin 2 → Nat) a + S2048x512.size a ≤ S2048x512.size a
  h_S2048x512 : 0 < S2048x512.numel
  packedbf16_S2048x512_S2048x512_0_0 : (Rect.unit (s := S2048x512) ![0, 0] S2048x512.size inb_S2048x512_S2048x512_0_0).PackedRows (EltTy.packing .bf16)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S2048x1024_S2048x8x128 : S2048x1024.ShapeCasts S2048x8x128
  reduces_S2048x8x128_S2048x128 : S2048x8x128.Reduces [1] S2048x128
  reduces_S2048x128_S2048 : S2048x128.Reduces [1] S2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1_S1_0 : ∀ a, (![0] : Fin 1 → Nat) a + S1.size a ≤ S1.size a
  h_S1 : 0 < S1.numel
  inpos_S1_p0 : ∀ a, (![0] : Fin 1 → Nat) a < S1.size a
  inb_S2048x1_S2048x1_0_0 : ∀ a, (![0, 0] : Fin 2 → Nat) a + S2048x1.size a ≤ S2048x1.size a
  h_S2048x1 : 0 < S2048x1.numel
  dot_S2048x768_S512x768_S2048x512_1_1_0_0_n_n_wf : DotDims.WF S2048x768 S512x768 S2048x512 [1] [1] [0] [0] [] []
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S8192x768.size a
  hwx0_0 : ∀ i : grid0.Coords, EltTy.bits .f32 = 32 ∨ (Rect.block (s := S8192x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .f32 = 32 ∨ (Rect.block (s := S512x768) S512x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x512.size a
  hwx0_3 : ∀ i : grid0.Coords, EltTy.bits .bf16 = 32 ∨ (Rect.block (s := S8192x512) S2048x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x768.size a ≤ S16384x768.size a
  hwx1_0 : ∀ i : grid1.Coords, EltTy.bits .f32 = 32 ∨ (Rect.block (s := S16384x768) S2048x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x768.size a ≤ S512x768.size a
  hwx1_1 : ∀ i : grid1.Coords, EltTy.bits .f32 = 32 ∨ (Rect.block (s := S512x768) S512x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x512.size a ≤ S16384x512.size a
  hwx1_3 : ∀ i : grid1.Coords, EltTy.bits .bf16 = 32 ∨ (Rect.block (s := S16384x512) S2048x512.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S8192x512.size a
  hwx2_0 : ∀ i : grid2.Coords, EltTy.bits .bf16 = 32 ∨ (Rect.block (s := S8192x512) S2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S16384x512.size a
  hwx2_1 : ∀ i : grid2.Coords, EltTy.bits .bf16 = 32 ∨ (Rect.block (s := S16384x512) S1024x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x16384.size a
  hwx2_2 : ∀ i : grid2.Coords, EltTy.bits .f32 = 32 ∨ (Rect.block (s := S1x16384) S1x1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2048x1.size a ≤ S8192x1.size a
  hwx2_5 : ∀ i : grid2.Coords, EltTy.bits .f32 = 32 ∨ (Rect.block (s := S8192x1) S2048x1.size (cc2_transform_5 i) (hinb2_5 i)).WholeWords (EltTy.packing .f32)

variable [Facts₀]

def dot_S2048x768_S512x768_S2048x512_1_1_0_0_n_n : DotDims S2048x768 S512x768 S2048x512 where
  lhsContracting := [1]
  rhsContracting := [1]
  lhsNonContracting := [0]
  rhsNonContracting := [0]
  lhsBatch := []
  rhsBatch := []
  wf := dot_S2048x768_S512x768_S2048x512_1_1_0_0_n_n_wf
def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2048x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S1024x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S2048x1.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S8192x768 : Shape := ⟨2, ![8192, 768]⟩
abbrev S16384x768 : Shape := ⟨2, ![16384, 768]⟩
abbrev S16384x1 : Shape := ⟨2, ![16384, 1]⟩
abbrev S512x768 : Shape := ⟨2, ![512, 768]⟩
abbrev S512 : Shape := ⟨1, ![512]⟩
abbrev S1x1 : Shape := ⟨2, ![1, 1]⟩
abbrev S1 : Shape := ⟨1, ![1]⟩
abbrev S_ : Shape := ⟨0, ![]⟩
abbrev S768x512 : Shape := ⟨2, ![768, 512]⟩
abbrev S8192x512 : Shape := ⟨2, ![8192, 512]⟩
abbrev S1x512 : Shape := ⟨2, ![1, 512]⟩
abbrev S16384x512 : Shape := ⟨2, ![16384, 512]⟩
abbrev S8192 : Shape := ⟨1, ![8192]⟩
abbrev S8192x1 : Shape := ⟨2, ![8192, 1]⟩
abbrev S16384 : Shape := ⟨1, ![16384]⟩
abbrev S512x16384 : Shape := ⟨2, ![512, 16384]⟩
abbrev S8192x16384 : Shape := ⟨2, ![8192, 16384]⟩

abbrev nBuf : Space → Nat
  | .hbm => 65
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S16384x768, .f32⟩
  | .hbm, ⟨2, _⟩ => ⟨S16384x1, .f32⟩
  | .hbm, ⟨3, _⟩ => ⟨S512x768, .f32⟩
  | .hbm, ⟨4, _⟩ => ⟨S512, .f32⟩
  | .hbm, ⟨5, _⟩ => ⟨S1x1, .f32⟩
  | .hbm, ⟨6, _⟩ => ⟨S1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S768x512, .f32⟩
  | .hbm, ⟨14, _⟩ => ⟨S8192x512, .f32⟩
  | .hbm, ⟨15, _⟩ => ⟨S1x512, .f32⟩
  | .hbm, ⟨16, _⟩ => ⟨S8192x512, .f32⟩
  | .hbm, ⟨17, _⟩ => ⟨S8192x512, .f32⟩
  | .hbm, ⟨18, _⟩ => ⟨S768x512, .f32⟩
  | .hbm, ⟨19, _⟩ => ⟨S16384x512, .f32⟩
  | .hbm, ⟨20, _⟩ => ⟨S1x512, .f32⟩
  | .hbm, ⟨21, _⟩ => ⟨S16384x512, .f32⟩
  | .hbm, ⟨22, _⟩ => ⟨S16384x512, .f32⟩
  | .hbm, ⟨23, _⟩ => ⟨S8192x512, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x512, .f32⟩
  | .hbm, ⟨32, _⟩ => ⟨S8192x512, .f32⟩
  | .hbm, ⟨33, _⟩ => ⟨S16384x512, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x512, .f32⟩
  | .hbm, ⟨42, _⟩ => ⟨S16384x512, .f32⟩
  | .hbm, ⟨43, _⟩ => ⟨S512x16384, .f32⟩
  | .hbm, ⟨44, _⟩ => ⟨S8192x16384, .f32⟩
  | .hbm, ⟨45, _⟩ => ⟨S8192x16384, .f32⟩
  | .hbm, ⟨46, _⟩ => ⟨S_, .f32⟩
  | .hbm, ⟨47, _⟩ => ⟨S8192x16384, .f32⟩
  | .hbm, ⟨48, _⟩ => ⟨S8192x16384, .f32⟩
  | .hbm, ⟨49, _⟩ => ⟨S8192x16384, .f32⟩
  | .hbm, ⟨50, _⟩ => ⟨S8192x16384, .f32⟩
  | .hbm, ⟨51, _⟩ => ⟨S8192x1, .f32⟩
  | .hbm, ⟨52, _⟩ => ⟨S1x1, .f32⟩
  | .hbm, ⟨53, _⟩ => ⟨S8192x1, .f32⟩
  | .hbm, ⟨54, _⟩ => ⟨S1x1, .f32⟩
  | .hbm, ⟨55, _⟩ => ⟨S8192x1, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_v46 : Ref sig .tc := ⟨.hbm, 61, rfl⟩
abbrev main_cst_7 : Ref sig .tc := ⟨.hbm, 62, rfl⟩
abbrev main_v47 : Ref sig .tc := ⟨.hbm, 63, rfl⟩
abbrev main_v48 : Ref sig .tc := ⟨.hbm, 64, rfl⟩

abbrev nD : Nat := 1
abbrev τ : Topo := Topo.v7x

variable {F : FTy → Type} [FloatOps F]

class Facts₀ : Prop where
  bcast_S_S16384x1 : S_.BroadcastsInDim S16384x1 (![] : Fin 0 → Fin S16384x1.rank)
  transposes_S512x768_S768x512_1_0 : S512x768.Transposes [1, 0] S768x512
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S1x512_S16384x512_0_1 : S1x512.BroadcastsInDim S16384x512 (![0, 1] : Fin 2 → Fin S16384x512.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  reducesTo_S16384x512_S16384_d1 : S16384x512.ReducesTo [1] S16384
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  transposes_S16384x512_S512x16384_1_0 : S16384x512.Transposes [1, 0] S512x16384
  bcast_S_S8192x16384 : S_.BroadcastsInDim S8192x16384 (![] : Fin 0 → Fin S8192x16384.rank)
  transposes_S1x1_S1x1_1_0 : S1x1.Transposes [1, 0] S1x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  dot_S8192x768_S768x512_S8192x512_1_0_0_1_n_n_wf : DotDims.WF S8192x768 S768x512 S8192x512 [1] [0] [0] [1] [] []
  dot_S16384x768_S768x512_S16384x512_1_0_0_1_n_n_wf : DotDims.WF S16384x768 S768x512 S16384x512 [1] [0] [0] [1] [] []
  dot_S8192x512_S512x16384_S8192x16384_1_0_0_1_n_n_wf : DotDims.WF S8192x512 S512x16384 S8192x16384 [1] [0] [0] [1] [] []
  dot_S8192x16384_S16384x1_S8192x1_1_0_0_1_n_n_wf : DotDims.WF S8192x16384 S16384x1 S8192x1 [1] [0] [0] [1] [] []
  dot_S8192x1_S1x1_S8192x1_1_0_0_1_n_n_wf : DotDims.WF S8192x1 S1x1 S8192x1 [1] [0] [0] [1] [] []

variable [Facts₀]

def dot_S8192x768_S768x512_S8192x512_1_0_0_1_n_n : DotDims S8192x768 S768x512 S8192x512 where
  lhsContracting := [1]
  rhsContracting := [0]
  lhsNonContracting := [0]
  rhsNonContracting := [1]
  lhsBatch := []
  rhsBatch := []
  wf := dot_S8192x768_S768x512_S8192x512_1_0_0_1_n_n_wf
def dot_S16384x768_S768x512_S16384x512_1_0_0_1_n_n : DotDims S16384x768 S768x512 S16384x512 where
  lhsContracting := [1]
  rhsContracting := [0]
  lhsNonContracting := [0]
  rhsNonContracting := [1]
  lhsBatch := []
  rhsBatch := []
  wf := dot_S16384x768_S768x512_S16384x512_1_0_0_1_n_n_wf
def dot_S8192x512_S512x16384_S8192x16384_1_0_0_1_n_n : DotDims S8192x512 S512x16384 S8192x16384 where
  lhsContracting := [1]
  rhsContracting := [0]
  lhsNonContracting := [0]
  rhsNonContracting := [1]
  lhsBatch := []
  rhsBatch := []
  wf := dot_S8192x512_S512x16384_S8192x16384_1_0_0_1_n_n_wf
def dot_S8192x16384_S16384x1_S8192x1_1_0_0_1_n_n : DotDims S8192x16384 S16384x1 S8192x1 where
  lhsContracting := [1]
  rhsContracting := [0]
  lhsNonContracting := [0]
  rhsNonContracting := [1]
  lhsBatch := []
  rhsBatch := []
  wf := dot_S8192x16384_S16384x1_S8192x1_1_0_0_1_n_n_wf
def dot_S8192x1_S1x1_S8192x1_1_0_0_1_n_n : DotDims S8192x1 S1x1 S8192x1 where
  lhsContracting := [1]
  rhsContracting := [0]
  lhsNonContracting := [0]
  rhsNonContracting := [1]
  lhsBatch := []
  rhsBatch := []
  wf := dot_S8192x1_S1x1_S8192x1_1_0_0_1_n_n_wf

class Facts : Prop extends Facts₀ where

variable [Facts]
-- ==== Proof.KI.EmbedData.lean ====
/-
  Regions 0 and 1 (the two launches of the embedding kernel): the proof data, stated at the contents `V` the
  region finds in the TensorCore's buffers.

  At grid point `t` the body loads the row block `t` of the operand (2048 rows of 768), the whole weight matrix and the
  whole bias, and stores ONE value, the payload `k·_pay1` of the three loads, over the whole output block. So after the
  body the output's staging buffer holds that payload of the three input blocks (`embOut0`, `embOut1`), and each input's
  buffer still holds its block.
-/
import proofs.«154334_j37211596652568_2_alg».proof.Proof.Gen.KernelIdeal.Launch
import proofs.«154334_j37211596652568_2_alg».proof.Proof.Gen.KernelIdeal.Skeleton
import proofs.«154334_j37211596652568_2_alg».proof.Proof.Gen.KernelIdeal.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The rectangles the body reads and writes: each the whole of its buffer -/

abbrev rRows : Rect S2048x768 := Rect.unit (s := S2048x768) ![0, 0] S2048x768.size inb_S2048x768_S2048x768_0_0
abbrev rWeight : Rect S512x768 := Rect.unit (s := S512x768) ![0, 0] S512x768.size inb_S512x768_S512x768_0_0
abbrev rBias : Rect S512 := Rect.unit (s := S512) ![0] S512.size inb_S512_S512_0
abbrev rEmb : Rect S2048x512 := Rect.unit (s := S2048x512) ![0, 0] S2048x512.size inb_S2048x512_S2048x512_0_0

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output's staging buffer after the body: the one store's payload over the whole buffer. -/
def embOut0 (x0 : Vec F S2048x768 .f32) (x1 : Vec F S512x768 .f32) (x2 : Vec F S512 .f32) : Vec F S2048x512 .bf16 :=
  View.canon [⟨rEmb, k0_pay1 (View.ld x0 rRows) (View.ld x1 rWeight) (View.ld x2 rBias)⟩]

/-- The proof data of pipeline 0 on core `c`: the arrays as the region finds them; after the body each input's buffer at
    its block and the output's at the payload of the three input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => embOut0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = embOut0 (iblk0 V c 0 t) (iblk0 V c 1 t) (iblk0 V c 2 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output's staging buffer after the body: the one store's payload over the whole buffer. -/
def embOut1 (x0 : Vec F S2048x768 .f32) (x1 : Vec F S512x768 .f32) (x2 : Vec F S512 .f32) : Vec F S2048x512 .bf16 :=
  View.canon [⟨rEmb, k1_pay1 (View.ld x0 rRows) (View.ld x1 rWeight) (View.ld x2 rBias)⟩]

/-- The proof data of pipeline 1 on core `c`, as region 0's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => embOut1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = embOut1 (iblk1 V c 0 t) (iblk1 V c 1 t) (iblk1 V c 2 t) := by dsimp only [dat1]

end Cert.KernelIdeal.Fr

end
-- ==== Proof.KI.EmbedBody.lean ====
/-
  Regions 0 and 1 (the two launches of the embedding kernel): the body obligations.

  The body reads its three inputs through rectangles that are each the whole of the staging buffer, and makes one store
  whose rectangle is the whole of the output's staging buffer. Each input's buffer holds that window's block at every
  point — the row block is fetched at every point, the weight matrix and the bias at the first point only, their block
  index being constant — and the one store covers the output's buffer, so what the buffer reads afterwards is the store's
  payload of the three blocks, whatever it held before.
-/
import proofs.«154334_j37211596652568_2_alg».proof.Proof.KI.EmbedData
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The one store covers the output's staging buffer -/

/-- The store's rectangle is the whole buffer: a single tile of the buffer's own extents. -/
theorem coverEmb (p0 : Vec F S2048x512 .bf16) (y : S2048x512.Idx) :
    ∃ pc ∈ ([⟨rEmb, p0⟩] : List (View.Piece (Elt F) S2048x512 .bf16)), y ∈ pc.1.set :=
  View.cover_of_tiled [⟨rEmb, p0⟩] S2048x512.size (by rfl) y

/-! ## Region 0: what each input window's staging buffer holds when the body runs -/

/-- Input window 0 (the row block of the operand, fetched at every point) holds its block at every point, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix: its block index is constant, so it is fetched at the first point only and
    the buffer is left alone afterwards) holds its block at every point: unfetched, the index has not moved and the
    previous point's block is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the whole bias vector), as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Region 0: the body's triple -/

set_option maxHeartbeats 1000000 in
/-- The body on whole staging memrefs, the three inputs' at read contents `x0`, `x1`, `x2` and the output's at
    anything (the body loads the output buffer before its store, and drops what it read), runs to the continuation
    holding the inputs' as they were and the output's at `embOut0 x0 x1 x2`: the one store covers the buffer, so what
    any view reads after it is the store's payload, whatever the buffer held. -/
theorem sound_kernel0 (c : Dev nD) (E : Set ℕ) (i : grid0.Coords)
    (arg1 : Memref sig .tc .vmem S2048x768 .f32) (harg1 : arg1.IsWhole) (arg2 : Memref sig .tc .vmem S512x768 .f32) (harg2 : arg2.IsWhole)
    (arg3 : Memref sig .tc .vmem S512 .f32) (harg3 : arg3.IsWhole) (arg4 : Memref sig .tc .vmem S2048x512 .bf16) (harg4 : arg4.IsWhole)
    (x0 : Vec F S2048x768 .f32) (x1 : Vec F S512x768 .f32) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (embOut0 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverEmb _)

/-! ## Region 0: the body obligation, at a generic point -/

/-- What the body is called with at point `t`: the invariant, the core's dues, and every window's current staging buffer
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Region 1: what each input window's staging buffer holds when the body runs -/

/-- Input window 0 (the row block of the operand, fetched at every point) holds its block at every point, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole weight matrix: its block index is constant, so it is fetched at the first point only and
    the buffer is left alone afterwards) holds its block at every point: unfetched, the index has not moved and the
    previous point's block is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the whole bias vector), as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Region 1: the body's triple -/

set_option maxHeartbeats 1000000 in
/-- The body on whole staging memrefs, the three inputs' at read contents `x0`, `x1`, `x2` and the output's at
    anything (the body loads the output buffer before its store, and drops what it read), runs to the continuation
    holding the inputs' as they were and the output's at `embOut1 x0 x1 x2`: the one store covers the buffer, so what
    any view reads after it is the store's payload, whatever the buffer held. -/
theorem sound_kernel1 (c : Dev nD) (E : Set ℕ) (i : grid1.Coords)
    (arg1 : Memref sig .tc .vmem S2048x768 .f32) (harg1 : arg1.IsWhole) (arg2 : Memref sig .tc .vmem S512x768 .f32) (harg2 : arg2.IsWhole)
    (arg3 : Memref sig .tc .vmem S512 .f32) (harg3 : arg3.IsWhole) (arg4 : Memref sig .tc .vmem S2048x512 .bf16) (harg4 : arg4.IsWhole)
    (x0 : Vec F S2048x768 .f32) (x1 : Vec F S512x768 .f32) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (embOut1 x0 x1 x2)) -∗ K ⟨⟩))
      ⊢ wp frame (wpE (defs₀ (F := F)) Variants.none c none) E (cc1__embed_kernel i arg1 harg1 arg2 harg2 arg3 harg3 arg4 harg4) K := by
  simp only [cc1__embed_kernel_eq_skeleton]; unfold cc1__embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverEmb _)

/-! ## Region 1: the body obligation, at a generic point -/

/-- What the body is called with at point `t`: the invariant, the core's dues, and every window's current staging buffer
    at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.AttnShared.lean ====
/- Region 2 (the attention kernel, grid [4,16], a scratch accumulator carried between points): what its
   three whole-body runs share — the windows' blocks at a point, the two branch conditions in closed form,
   where the output window is idle, the staging and scratch memrefs, and the region invariant with the
   scratch split out. Everything is stated at a parameter `V`, the TensorCore's buffer contents when the
   region is entered. -/
import proofs.«154334_j37211596652568_2_alg».proof.Proof.Gen.KernelIdeal.Launch
import proofs.«154334_j37211596652568_2_alg».proof.Proof.Gen.KernelIdeal.Skeleton
import proofs.«154334_j37211596652568_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any
    proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any
    proof data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any
    proof data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any
    proof data whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any
    proof data whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first `scf.if`: the second grid coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 16) — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second `scf.if`: the second grid coordinate is 15. -/
abbrev cond2_1 (i : grid2.Coords) : Prop := k2_cond2 i = 1#1
/-- It holds at the points ≡ 15 (mod 16) — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- At the points of case A the output window is idle: the case stores nothing into it. -/
theorem idleAt2_5_A : ∀ t : Fin cfg2.N, cond2_0 (grid2.coords t) → ¬cond2_1 (grid2.coords t) → cfg2.idle 5 (grid2.coords t) = true := by decide +kernel
/-- At the points of case A the output's block is not written back. -/
theorem noFlush2_5_A : ∀ t : Fin cfg2.N, cond2_0 (grid2.coords t) → ¬cond2_1 (grid2.coords t) → (cfg2.win 5).flush t = false := by decide +kernel
/-- At the points of case B the output window is idle. -/
theorem idleAt2_5_B : ∀ t : Fin cfg2.N, ¬cond2_0 (grid2.coords t) → ¬cond2_1 (grid2.coords t) → cfg2.idle 5 (grid2.coords t) = true := by decide +kernel
/-- At the points of case B the output's block is not written back. -/
theorem noFlush2_5_B : ∀ t : Fin cfg2.N, ¬cond2_0 (grid2.coords t) → ¬cond2_1 (grid2.coords t) → (cfg2.win 5).flush t = false := by decide +kernel
/-- At the points of case C the output window is live: the case stores into it. -/
theorem liveAt2_5_C : ∀ t : Fin cfg2.N, ¬cond2_0 (grid2.coords t) → cond2_1 (grid2.coords t) → cfg2.idle 5 (grid2.coords t) = false := by decide +kernel

/-! ## The memrefs the body is called with -/

/-- One staging buffer of the output window, through which its contents are stated. -/
abbrev VO2_5 : View sig .tc .vmem S2048x1 .f32 := (Memref.whole cc2_stg5_0 : Memref sig .tc .vmem S2048x1 .f32).view
/-- Each window's current staging memref at point `t`, and its wholeness. -/
abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x1 .f32 := win2_5.stage (cfg2.slots t 5)
abbrev hs2_5 (t : Fin cfg2.N) : (ms2_5 t).IsWhole := hstage2_5 ((cfg2.slots t 5).cast nbuf2_5)
/-- The scratch operand: a whole scoped buffer of the kernel's own, passed beside the windows. -/
abbrev scM2 : Memref sig .tc .vmem S2048x128 .f32 := Memref.whole cc2_scratch0
/-- The scratch the kernel carries between points, as a view: what it holds is stated through it. -/
abbrev VS2 : View sig .tc .vmem S2048x128 .f32 := scM2.view

/-! ## The region invariant with the scratch split out -/

/-- The core's scoped buffers that belong to the other two regions (their staging buffers), each whole at some
    contents: the region never touches them. -/
def otherScoped2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's invariant as the launch hands it over: the other regions' staging buffers at some contents, the
    scratch operand as a memref owned at some contents, and the generator register at some state. -/
theorem PhiA2_eq (c : Dev nD) :
    (Pipeline.ΦA spec2 c : sProp 𝕄)
      = iprop(iprop(otherScoped2 (F := F) c ∗ (∃ d, owns (c : Thread nD τ) scM2 fullShare d)) ∗ (∃ r, prngReg c r)) := by
  unfold Pipeline.ΦA; rw [scopedRest2_eq]; unfold otherScoped2; simp only [scM2, owns_whole]
  refine equiv_iff.mp ⟨?_, ?_⟩
  · show @BIBase.Entails (sProp 𝕄) _ _ _
    iintro ⟨⟨H1, H2, H3, H4, H5, H6, H7, H8, H9, H10, H11, H12, HS⟩, Hg⟩
    iframe
  · show @BIBase.Entails (sProp 𝕄) _ _ _
    iintro ⟨⟨⟨H1, H2, H3, H4, H5, H6, H7, H8, H9, H10, H11, H12⟩, HS⟩, Hg⟩
    iframe

end Cert.KernelIdeal.Fr

end
-- ==== Proof.KI.AttnRunA.lean ====
/- Region 2's kernel body run whole in control case A: the first conditional taken (the scratch is zeroed), the second not (no output store) — the points ≡ 0 (mod 16) -/
import proofs.«154334_j37211596652568_2_alg».proof.Proof.KI.AttnShared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), in case A — with the proof that on whole memrefs, the
    inputs' at their contents, the idle output's at contents handed back untouched and the scratch at anything
    (the case overwrites it whole), the body runs to the continuation holding the inputs and the output as they
    were and the scratch with its pieces written. -/
noncomputable def kernelRun2_A (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : cond2_0 i) (hc1 : ¬cond2_1 i)
    (x0 : Vec F S2048x512 .bf16) (x1 : Vec F S1024x512 .bf16) (x2 : Vec F S1x1024 .f32) :
    Σ' (L5 : List (View.Piece (Elt F) S2048x1 .f32)), { LS : List (View.Piece (Elt F) S2048x128 .f32) //
      ∀ (x3 : Vec F S1x1 .f32) (x4 : Vec F S1 .f32) (xi5 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨[], ?_, fun x3 x4 xi5 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, H3, H4, H5, ⟨%ds, %fs, -, HS⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    isplitl [H4]; · iexact H4
    isplitl [H5]; · iexact H5
    iexists _; iexact HS

end Cert.KernelIdeal.Fr

end
-- ==== Proof.KI.AttnRunB.lean ====
/- Region 2's kernel body run whole in control case B: neither conditional taken (the scratch accumulates, no output store) — the points with 0 < t mod 16 < 15 -/
import proofs.«154334_j37211596652568_2_alg».proof.Proof.KI.AttnRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), in case B — with the proof that on whole memrefs, the
    inputs' at their contents, the idle output's at contents handed back untouched and the scratch at the contents
    the point before left, the body runs to the continuation holding the inputs and the output as they were and the
    scratch with its pieces written. -/
noncomputable def kernelRun2_B (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : ¬cond2_1 i)
    (x0 : Vec F S2048x512 .bf16) (x1 : Vec F S1024x512 .bf16) (x2 : Vec F S1x1024 .f32) (xs : Vec F S2048x128 .f32) :
    Σ' (L5 : List (View.Piece (Elt F) S2048x1 .f32)), { LS : List (View.Piece (Elt F) S2048x128 .f32) //
      ∀ (x3 : Vec F S1x1 .f32) (x4 : Vec F S1 .f32) (xi5 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨[], ?_, fun x3 x4 xi5 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, H3, H4, H5, ⟨%fs, %hfs, HS⟩, Hk⟩
    obtain rfl := harg2.eq_unread hf0; obtain rfl := harg3.eq_unread hf1; obtain rfl := harg4.eq_unread hf2
    obtain rfl := harg8.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    isplitl [H4]; · iexact H4
    isplitl [H5]; · iexact H5
    iexists _; iexact HS

end Cert.KernelIdeal.Fr

end
-- ==== Proof.KI.AttnRunC.lean ====
/- Region 2's kernel body run whole in control case C: the first conditional not taken, the second taken (the scratch accumulates, then the output is stored from it) — the points ≡ 15 (mod 16) -/
import proofs.«154334_j37211596652568_2_alg».proof.Proof.KI.AttnRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), in case C — with the proof that on whole memrefs, the
    inputs' at their contents, the output's at anything and the scratch at the contents the point before left, the
    body runs to the continuation holding the inputs as they were and the output and the scratch with their pieces
    written. -/
noncomputable def kernelRun2_C (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) :
    Σ' (L5 : List (View.Piece (Elt F) S2048x1 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨?_, ?_, fun E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Fr

end
-- ==== Proof.KI.AttnFrame.lean ====
/- Region 2 (the attention kernel with its carried scratch accumulator): what the output window's buffer and the
   scratch hold per control case and point by point, the region's proof data at the entry contents `V`, the body
   obligation at every point, and the invariant's entry and exit. -/
import proofs.«154334_j37211596652568_2_alg».proof.Proof.KI.AttnRunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the output window (idle at its points, not written back there): no pieces — a
    placeholder (junk read back) that nothing consults. -/
def out2_A_5 (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : cond2_0 i) (hc1 : ¬cond2_1 i)
    (x0 : Vec F S2048x512 .bf16) (x1 : Vec F S1024x512 .bf16) (x2 : Vec F S1x1024 .f32) : Vec F S2048x1 .f32 :=
  VO2_5.read (Elt F) (VO2_5.writes (Elt F) VO2_5.junk (kernelRun2_A c i arg2 harg2 arg3 harg3 arg4 harg4 arg5 harg5 arg6 harg6 arg7 harg7 arg8 harg8 hc0 hc1 x0 x1 x2).1)

/-- Case A's pieces for the scratch cover it (they tile it: checked by evaluation). -/
theorem scover2_A (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : cond2_0 i) (hc1 : ¬cond2_1 i)
    (x0 : Vec F S2048x512 .bf16) (x1 : Vec F S1024x512 .bf16) (x2 : Vec F S1x1024 .f32) (y : S2048x128.Idx) :
    ∃ pc ∈ (kernelRun2_A c i arg2 harg2 arg3 harg3 arg4 harg4 arg5 harg5 arg6 harg6 arg7 harg7 arg8 harg8 hc0 hc1 x0 x1 x2).2.1, y ∈ pc.1.set :=
  View.cover_of_tiledL (kernelRun2_A c i arg2 harg2 arg3 harg3 arg4 harg4 arg5 harg5 arg6 harg6 arg7 harg7 arg8 harg8 hc0 hc1 x0 x1 x2).2.1 S2048x128.size (by sl_kernel_rfl) y

/-- What case A leaves in the scratch: its pieces read back over junk. -/
def sout2_A (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : cond2_0 i) (hc1 : ¬cond2_1 i)
    (x0 : Vec F S2048x512 .bf16) (x1 : Vec F S1024x512 .bf16) (x2 : Vec F S1x1024 .f32) : Vec F S2048x128 .f32 :=
  VS2.read (Elt F) (VS2.writes (Elt F) VS2.junk (kernelRun2_A c i arg2 harg2 arg3 harg3 arg4 harg4 arg5 harg5 arg6 harg6 arg7 harg7 arg8 harg8 hc0 hc1 x0 x1 x2).2.1)

/-- Case B stores nothing into the output window (idle at its points, not written back there): no pieces — a
    placeholder (junk read back) that nothing consults. -/
def out2_B_5 (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : ¬cond2_1 i)
    (x0 : Vec F S2048x512 .bf16) (x1 : Vec F S1024x512 .bf16) (x2 : Vec F S1x1024 .f32) (xs : Vec F S2048x128 .f32) : Vec F S2048x1 .f32 :=
  VO2_5.read (Elt F) (VO2_5.writes (Elt F) VO2_5.junk (kernelRun2_B c i arg2 harg2 arg3 harg3 arg4 harg4 arg5 harg5 arg6 harg6 arg7 harg7 arg8 harg8 hc0 hc1 x0 x1 x2 xs).1)

/-- Case B's pieces for the scratch cover it (they tile it: checked by evaluation). -/
theorem scover2_B (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : ¬cond2_1 i)
    (x0 : Vec F S2048x512 .bf16) (x1 : Vec F S1024x512 .bf16) (x2 : Vec F S1x1024 .f32) (xs : Vec F S2048x128 .f32) (y : S2048x128.Idx) :
    ∃ pc ∈ (kernelRun2_B c i arg2 harg2 arg3 harg3 arg4 harg4 arg5 harg5 arg6 harg6 arg7 harg7 arg8 harg8 hc0 hc1 x0 x1 x2 xs).2.1, y ∈ pc.1.set :=
  View.cover_of_tiledL (kernelRun2_B c i arg2 harg2 arg3 harg3 arg4 harg4 arg5 harg5 arg6 harg6 arg7 harg7 arg8 harg8 hc0 hc1 x0 x1 x2 xs).2.1 S2048x128.size (by sl_kernel_rfl) y

/-- What case B leaves in the scratch: its pieces read back over junk. -/
def sout2_B (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : ¬cond2_1 i)
    (x0 : Vec F S2048x512 .bf16) (x1 : Vec F S1024x512 .bf16) (x2 : Vec F S1x1024 .f32) (xs : Vec F S2048x128 .f32) : Vec F S2048x128 .f32 :=
  VS2.read (Elt F) (VS2.writes (Elt F) VS2.junk (kernelRun2_B c i arg2 harg2 arg3 harg3 arg4 harg4 arg5 harg5 arg6 harg6 arg7 harg7 arg8 harg8 hc0 hc1 x0 x1 x2 xs).2.1)

/-- Case C's pieces for the output window tile its block, so they cover it. -/
theorem cover2_C_5 (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) (y : S2048x1.Idx) :
    ∃ pc ∈ (kernelRun2_C c i arg2 harg2 arg3 harg3 arg4 harg4 arg5 harg5 arg6 harg6 arg7 harg7 arg8 harg8 hc0 hc1 x0 x1 x2 x3 x4 xs).1, y ∈ pc.1.set :=
  View.cover_of_tiledL (kernelRun2_C c i arg2 harg2 arg3 harg3 arg4 harg4 arg5 harg5 arg6 harg6 arg7 harg7 arg8 harg8 hc0 hc1 x0 x1 x2 x3 x4 xs).1 S2048x1.size (by sl_kernel_rfl) y

/-- What case C leaves in the output window's staging buffer: its pieces read back over junk. -/
def out2_C_5 (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) : Vec F S2048x1 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs).1)

/-- Case C's pieces for the scratch cover it (they tile it: checked by evaluation). -/
theorem scover2_C (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) (y : S2048x128.Idx) :
    ∃ pc ∈ (kernelRun2_C c i arg2 harg2 arg3 harg3 arg4 harg4 arg5 harg5 arg6 harg6 arg7 harg7 arg8 harg8 hc0 hc1 x0 x1 x2 x3 x4 xs).2.1, y ∈ pc.1.set :=
  View.cover_of_tiledL (kernelRun2_C c i arg2 harg2 arg3 harg3 arg4 harg4 arg5 harg5 arg6 harg6 arg7 harg7 arg8 harg8 hc0 hc1 x0 x1 x2 x3 x4 xs).2.1 S2048x128.size (by sl_kernel_rfl) y

/-- What case C leaves in the scratch: its pieces read back over junk. -/
def sout2_C (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) : Vec F S2048x128 .f32 :=
  VS2.read (Elt F) (VS2.writes (Elt F) VS2.junk (kernelRun2_C c i arg2 harg2 arg3 harg3 arg4 harg4 arg5 harg5 arg6 harg6 arg7 harg7 arg8 harg8 hc0 hc1 x0 x1 x2 x3 x4 xs).2.1)

section Region2
variable (V : (c : Dev nD) → (b : Ref sig .tc) → Buf (Elt F) ((c : Thread nD τ).loc b))

/-! ## What the output's buffer and the scratch hold after each point -/

/-- The accumulation: what the output window's staging buffer and the carried scratch hold after the body at
    position `n` — the case the closed forms select at `n`, run at the point's memrefs and input blocks, the scratch
    on entry at what the point before left. Both conditions at once is met by no point. -/
def outsAt2 (c : Dev nD) : (n : ℕ) → n < cfg2.N → Vec F S2048x1 .f32 × Vec F S2048x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 16 = 0) (h1 : ¬t.val % 16 = 15) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 16 = 0) (h1 : ¬t.val % 16 = 15) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 16 = 0) (h1 : t.val % 16 = 15) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped
    buffer at anything); afterwards the other regions' buffers at anything, the scratch at what the point before left
    in it, and the generator register at some state. -/
def PhiS2 (c : Dev nD) : (n : ℕ) → n ≤ cfg2.N → sProp 𝕄
  | 0, _ => Pipeline.ΦA spec2 c
  | n + 1, hn => iprop(iprop(otherScoped2 (F := F) c ∗ owns (c : Thread nD τ) scM2 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch at that point's contents. -/
theorem PhiS2_succ (c : Dev nD) (n : ℕ) (hn : n < cfg2.N) :
    PhiS2 V c (n + 1) hn = iprop(iprop(otherScoped2 (F := F) c ∗ owns (c : Thread nD τ) scM2 fullShare ((outsAt2 V c n hn).2)) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(otherScoped2 (F := F) c ∗ owns (c : Thread nD τ) scM2 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in;
    so that case's run applies; the invariant hands the body the scratch at what the point before left (at anything
    at the first point) and takes it back at this point's contents; the other regions' buffers and the generator
    register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨Hoth, HS⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [Hoth HS Hg]
        · isplitl [Hoth HS]
          · isplitl [Hoth]; · iexact Hoth
            unfold owns; iexists _; isplitr
            swap; · iexact HS
            ipureintro; exact View.read_writes_of_cover _ _ _ _ _ (scover2_A c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨⟨Hoth, HS⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [Hoth HS Hg]
        · isplitl [Hoth HS]
          · isplitl [Hoth]; · iexact Hoth
            unfold owns; iexists _; isplitr
            swap; · iexact HS
            ipureintro; exact View.read_writes_of_cover _ _ _ _ _ (scover2_A c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C; (try dsimp only)
      by_cases hz : t.val = 0
      · exfalso; omega
      · rw [PhiS2_castSucc V c t, PhiS2_pos V c _ _ hz]
        iintro ⟨⟨⟨Hoth, HS⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, ⟨%e5, H5⟩, ⟨%es, HS⟩⟩
        isplitl [Hoth HS Hg]
        · isplitl [Hoth HS]
          · isplitl [Hoth]; · iexact Hoth
            unfold owns; iexists _; isplitr
            swap; · iexact HS
            ipureintro; exact View.read_writes_of_cover _ _ _ _ _ (scover2_C c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B; (try dsimp only)
      by_cases hz : t.val = 0
      · exfalso; omega
      · rw [PhiS2_castSucc V c t, PhiS2_pos V c _ _ hz]
        iintro ⟨⟨⟨Hoth, HS⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) _).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [Hoth HS Hg]
        · isplitl [Hoth HS]
          · isplitl [Hoth]; · iexact Hoth
            unfold owns; iexists _; isplitr
            swap; · iexact HS
            ipureintro; exact View.read_writes_of_cover _ _ _ _ _ (scover2_B c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's form back: the scratch's named contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hoth, HS⟩, Hg⟩
  isplitl [Hoth HS]
  · isplitl [Hoth]; · iexact Hoth
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region2

end Cert.KernelIdeal.Fr

end
-- ==== Proof.KI.Run.lean ====
/-
  THE RUN of @main: seven host operations, then the three kernel regions one after another.

  The buffer contents at each segment boundary are a fold from the launch memory: after the host operations; after
  region 0 (its arrays at what its write-backs leave); after region 1; after region 2. Each pipeline's proof data is
  taken at its region's entry contents. Every argument array walks back through the fold to its launch contents (no
  host operation writes an argument, and a region only reads one, through an input window), which is the frame; the last
  region's output array ends at what that region's write-backs leave, which is what a value claim reads.
-/
import proofs.«154334_j37211596652568_2_alg».proof.Proof.KI.EmbedBody
import proofs.«154334_j37211596652568_2_alg».proof.Proof.KI.AttnFrame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main

All the host operations come before region 0; the three regions follow one another with nothing between. -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit (region 1's entry): its arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit (what the launch reads at the end). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments through the fold

No host operation writes an argument; a region reads one through an input window (whose array the pipeline leaves as
entered) or bypasses it. So the fold at an argument's buffer walks back to the launch memory. -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem V1_main_arg0 (c : Dev nD) : V1 m ρ c main_arg0 = m ((c : Thread nD τ).loc main_arg0) := W1_main_arg0 m ρ c
theorem V1_main_arg3 (c : Dev nD) : V1 m ρ c main_arg3 = m ((c : Thread nD τ).loc main_arg3) := W1_main_arg3 m ρ c
theorem V1_main_arg4 (c : Dev nD) : V1 m ρ c main_arg4 = m ((c : Thread nD τ).loc main_arg4) := W1_main_arg4 m ρ c

theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (W1_main_arg3 m ρ c)
theorem W2_main_arg4 (c : Dev nD) : W2 m ρ c (Proc.devRef .tc main_arg4) = m ((c : Thread nD τ).loc main_arg4) :=
  ((W2_arr m ρ c 2).trans (((dat0 (V1 m ρ) c).arrAt_in 2 rfl _).trans (A_eq0 (V1 m ρ) c 2))).trans (W1_main_arg4 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W2_main_arg6 (c : Dev nD) : W2 m ρ c (Proc.devRef .tc main_arg6) = m ((c : Thread nD τ).loc main_arg6) :=
  (W2_of_ne m ρ c main_arg6 (by decide)).trans (W1_main_arg6 m ρ c)

theorem V2_main_arg1 (c : Dev nD) : V2 m ρ c main_arg1 = m ((c : Thread nD τ).loc main_arg1) := W2_main_arg1 m ρ c
theorem V2_main_arg3 (c : Dev nD) : V2 m ρ c main_arg3 = m ((c : Thread nD τ).loc main_arg3) := W2_main_arg3 m ρ c
theorem V2_main_arg4 (c : Dev nD) : V2 m ρ c main_arg4 = m ((c : Thread nD τ).loc main_arg4) := W2_main_arg4 m ρ c

theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  ((W3_arr m ρ c 1).trans (((dat1 (V2 m ρ) c).arrAt_in 1 rfl _).trans (A_eq1 (V2 m ρ) c 1))).trans (W2_main_arg3 m ρ c)
theorem W3_main_arg4 (c : Dev nD) : W3 m ρ c (Proc.devRef .tc main_arg4) = m ((c : Thread nD τ).loc main_arg4) :=
  ((W3_arr m ρ c 2).trans (((dat1 (V2 m ρ) c).arrAt_in 2 rfl _).trans (A_eq1 (V2 m ρ) c 2))).trans (W2_main_arg4 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W3_main_arg6 (c : Dev nD) : W3 m ρ c (Proc.devRef .tc main_arg6) = m ((c : Thread nD τ).loc main_arg6) :=
  (W3_of_ne m ρ c main_arg6 (by decide)).trans (W2_main_arg6 m ρ c)

theorem W4_main_arg0 (c : Dev nD) : W4 m ρ c (Proc.devRef .tc main_arg0) = m ((c : Thread nD τ).loc main_arg0) :=
  (W4_of_ne m ρ c main_arg0 (by decide)).trans (W3_main_arg0 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  ((W4_arr m ρ c 3).trans (((dat2 (V3 m ρ) c).arrAt_in 3 rfl _).trans (A_eq2 (V3 m ρ) c 3))).trans (W3_main_arg5 m ρ c)
theorem W4_main_arg6 (c : Dev nD) : W4 m ρ c (Proc.devRef .tc main_arg6) = m ((c : Thread nD τ).loc main_arg6) :=
  ((W4_arr m ρ c 4).trans (((dat2 (V3 m ρ) c).arrAt_in 4 rfl _).trans (A_eq2 (V3 m ρ) c 4))).trans (W3_main_arg6 m ρ c)

/-- The last region's output array ends at what its write-backs leave. -/
theorem W4_main_v7 (c : Dev nD) : W4 m ρ c (Proc.devRef .tc main_v7) = (dat2 (V3 m ρ) c).arrAt 5 cfg2.N := W4_arr m ρ c 5

/-! ## What region 2 finds in its arrays -/

/-- The normalised rows: region 0's output array after its write-backs (region 1 does not touch it). -/
theorem V3_main_v5 (c : Dev nD) : V3 m ρ c main_v5 = (dat0 (V1 m ρ) c).arrAt 3 cfg0.N :=
  (W3_of_ne m ρ c main_v5 (by decide)).trans (W2_arr m ρ c 3)
/-- The normalised dictionary: region 1's output array after its write-backs. -/
theorem V3_main_v6 (c : Dev nD) : V3 m ρ c main_v6 = (dat1 (V2 m ρ) c).arrAt 3 cfg1.N := W3_arr m ρ c 3
/-- The label row: as the host operations left it (no region before region 2 touches it). -/
theorem V3_main_v4 (c : Dev nD) : V3 m ρ c main_v4 = V1 m ρ c main_v4 :=
  (W3_of_ne m ρ c main_v4 (by decide)).trans (W2_of_ne m ρ c main_v4 (by decide))
theorem V3_main_arg5 (c : Dev nD) : V3 m ρ c main_arg5 = m ((c : Thread nD τ).loc main_arg5) := W3_main_arg5 m ρ c
theorem V3_main_arg6 (c : Dev nD) : V3 m ρ c main_arg6 = m ((c : Thread nD τ).loc main_arg6) := W3_main_arg6 m ρ c

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment, over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments

Each region's arrays are split out of the unscoped buffers at entry and put back at the exit contents; the generator
register goes into the pipeline's invariant and comes back; nothing is owed; the kernels have no semaphore of their
own. Region 2's invariant varies with the point (it names what the carried scratch holds): what the launch hands is
turned into the invariant before the first point, and the invariant after the last point gives the same back. -/

-- a library lemma stated over the pinned configuration of pipeline `p` meets the printed configuration only when
-- unification may unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline `p` meets the printed configuration only when
-- unification may unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline `p` meets the printed configuration only when
-- unification may unfold plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    refine .trans ?_ (hin2 (V3 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V3 m ρ) c).Φ (Fin.last cfg2.N) from rfl]
    refine (hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: the host operations from the launch contents, then the three regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and every final state holds, at every unscoped buffer of every core, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The seven arguments end as launched, read off the last boundary's contents. -/
theorem args_of_all (r : PUnit × MemSt nD τ sig (Elt F))
    (h : ∀ c : Dev nD, ∀ b ∈ Pipeline.ucRefs τ sig, r.2.mem (((c : Thread nD τ)).1, b) = W4 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c _ (mem_uc main_arg0 (by decide))).trans (W4_main_arg0 m ρ c),
   (h c _ (mem_uc main_arg1 (by decide))).trans (W4_main_arg1 m ρ c),
   (h c _ (mem_uc main_arg2 (by decide))).trans (W4_main_arg2 m ρ c),
   (h c _ (mem_uc main_arg3 (by decide))).trans (W4_main_arg3 m ρ c),
   (h c _ (mem_uc main_arg4 (by decide))).trans (W4_main_arg4 m ρ c),
   (h c _ (mem_uc main_arg5 (by decide))).trans (W4_main_arg5 m ρ c),
   (h c _ (mem_uc main_arg6 (by decide))).trans (W4_main_arg6 m ρ c)⟩

/-- THE FRAME, at any `F`: @main terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_of_all m ρ r h c) (run_all m ρ)

/-- The same with the output array named: it ends at what region 2's write-backs leave. -/
theorem run_value : θ_run defs (onTc (τ := τ) (main (F := F))) ⟨m, fun _ => 0, ρ⟩ (fun r => ∀ c : Dev nD,
      r.2.mem ((c.tc : Thread nD τ).loc main_v7) = (dat2 (V3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v7 (by decide))).trans (W4_main_v7 m ρ c), args_of_all m ρ r h c⟩) (run_all m ρ)

end Cert.KernelIdeal.Fr

end
-- ==== Proof.K.EmbedData.lean ====
/-
  Regions 0 and 1 (the two launches of the embedding kernel): the proof data, stated at the contents `V` the
  region finds in the TensorCore's buffers.

  At grid point `t` the body loads the row block `t` of the operand (2048 rows of 768), the whole weight matrix and the
  whole bias, and stores ONE value, the payload `k·_pay1` of the three loads, over the whole output block. So after the
  body the output's staging buffer holds that payload of the three input blocks (`embOut0`, `embOut1`), and each input's
  buffer still holds its block.
-/
import proofs.«154334_j37211596652568_2_alg».proof.Proof.Gen.Kernel.Launch
import proofs.«154334_j37211596652568_2_alg».proof.Proof.Gen.Kernel.Skeleton
import proofs.«154334_j37211596652568_2_alg».proof.Proof.Gen.Kernel.Points
import Idealize.ShloMosaic.Lib.Pipeline.FrameBody
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-! ## The rectangles the body reads and writes: each the whole of its buffer -/

abbrev rRows : Rect S2048x768 := Rect.unit (s := S2048x768) ![0, 0] S2048x768.size inb_S2048x768_S2048x768_0_0
abbrev rWeight : Rect S512x768 := Rect.unit (s := S512x768) ![0, 0] S512x768.size inb_S512x768_S512x768_0_0
abbrev rBias : Rect S512 := Rect.unit (s := S512) ![0] S512.size inb_S512_S512_0
abbrev rEmb : Rect S2048x512 := Rect.unit (s := S2048x512) ![0, 0] S2048x512.size inb_S2048x512_S2048x512_0_0

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output's staging buffer after the body: the one store's payload over the whole buffer. -/
def embOut0 (x0 : Vec F S2048x768 .f32) (x1 : Vec F S512x768 .f32) (x2 : Vec F S512 .f32) : Vec F S2048x512 .bf16 :=
  View.canon [⟨rEmb, k0_pay1 (View.ld x0 rRows) (View.ld x1 rWeight) (View.ld x2 rBias)⟩]

/-- The proof data of pipeline 0 on core `c`: the arrays as the region finds them; after the body each input's buffer at
    its block and the output's at the payload of the three input blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => embOut0 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = embOut0 (iblk0 V c 0 t) (iblk0 V c 1 t) (iblk0 V c 2 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The output's staging buffer after the body: the one store's payload over the whole buffer. -/
def embOut1 (x0 : Vec F S2048x768 .f32) (x1 : Vec F S512x768 .f32) (x2 : Vec F S512 .f32) : Vec F S2048x512 .bf16 :=
  View.canon [⟨rEmb, k1_pay1 (View.ld x0 rRows) (View.ld x1 rWeight) (View.ld x2 rBias)⟩]

/-- The proof data of pipeline 1 on core `c`, as region 0's. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => embOut1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = embOut1 (iblk1 V c 0 t) (iblk1 V c 1 t) (iblk1 V c 2 t) := by dsimp only [dat1]

end Cert.Kernel.Fr

end
-- ==== Proof.K.EmbedBody.lean ====
/-
  Regions 0 and 1 (the two launches of the embedding kernel): the body obligations.

  The body reads its three inputs through rectangles that are each the whole of the staging buffer, and makes one store
  whose rectangle is the whole of the output's staging buffer. Each input's buffer holds that window's block at every
  point — the row block is fetched at every point, the weight matrix and the bias at the first point only, their block
  index being constant — and the one store covers the output's buffer, so what the buffer reads afterwards is the store's
  payload of the three blocks, whatever it held before.
-/
import proofs.«154334_j37211596652568_2_alg».proof.Proof.K.EmbedData
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The one store covers the output's staging buffer -/

/-- The store's rectangle is the whole buffer: a single tile of the buffer's own extents. -/
theorem coverEmb (p0 : Vec F S2048x512 .bf16) (y : S2048x512.Idx) :
    ∃ pc ∈ ([⟨rEmb, p0⟩] : List (View.Piece (Elt F) S2048x512 .bf16)), y ∈ pc.1.set :=
  View.cover_of_tiled [⟨rEmb, p0⟩] S2048x512.size (by rfl) y

/-! ## Region 0: what each input window's staging buffer holds when the body runs -/

/-- Input window 0 (the row block of the operand, fetched at every point) holds its block at every point, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight matrix: its block index is constant, so it is fetched at the first point only and
    the buffer is left alone afterwards) holds its block at every point: unfetched, the index has not moved and the
    previous point's block is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 (the whole bias vector), as window 1. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Region 0: the body's triple -/

set_option maxHeartbeats 1000000 in
/-- The body on whole staging memrefs, the three inputs' at read contents `x0`, `x1`, `x2` and the output's at
    anything (the body loads the output buffer before its store, and drops what it read), runs to the continuation
    holding the inputs' as they were and the output's at `embOut0 x0 x1 x2`: the one store covers the buffer, so what
    any view reads after it is the store's payload, whatever the buffer held. -/
theorem sound_kernel0 (c : Dev nD) (E : Set ℕ) (i : grid0.Coords)
    (arg1 : Memref sig .tc .vmem S2048x768 .f32) (harg1 : arg1.IsWhole) (arg2 : Memref sig .tc .vmem S512x768 .f32) (harg2 : arg2.IsWhole)
    (arg3 : Memref sig .tc .vmem S512 .f32) (harg3 : arg3.IsWhole) (arg4 : Memref sig .tc .vmem S2048x512 .bf16) (harg4 : arg4.IsWhole)
    (x0 : Vec F S2048x768 .f32) (x1 : Vec F S512x768 .f32) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (embOut0 x0 x1 x2)) -∗ K ⟨⟩))
      ⊢ wp frame (wpE (defs₀ (F := F)) Variants.none c none) E (cc0__embed_kernel i arg1 harg1 arg2 harg2 arg3 harg3 arg4 harg4) K := by
  simp only [cc0__embed_kernel_eq_skeleton]; unfold cc0__embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverEmb _)

/-! ## Region 0: the body obligation, at a generic point -/

/-- What the body is called with at point `t`: the invariant, the core's dues, and every window's current staging buffer
    at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Region 1: what each input window's staging buffer holds when the body runs -/

/-- Input window 0 (the row block of the operand, fetched at every point) holds its block at every point, for any proof
    data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the whole weight matrix: its block index is constant, so it is fetched at the first point only and
    the buffer is left alone afterwards) holds its block at every point: unfetched, the index has not moved and the
    previous point's block is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the whole bias vector), as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Region 1: the body's triple -/

set_option maxHeartbeats 1000000 in
/-- The body on whole staging memrefs, the three inputs' at read contents `x0`, `x1`, `x2` and the output's at
    anything (the body loads the output buffer before its store, and drops what it read), runs to the continuation
    holding the inputs' as they were and the output's at `embOut1 x0 x1 x2`: the one store covers the buffer, so what
    any view reads after it is the store's payload, whatever the buffer held. -/
theorem sound_kernel1 (c : Dev nD) (E : Set ℕ) (i : grid1.Coords)
    (arg1 : Memref sig .tc .vmem S2048x768 .f32) (harg1 : arg1.IsWhole) (arg2 : Memref sig .tc .vmem S512x768 .f32) (harg2 : arg2.IsWhole)
    (arg3 : Memref sig .tc .vmem S512 .f32) (harg3 : arg3.IsWhole) (arg4 : Memref sig .tc .vmem S2048x512 .bf16) (harg4 : arg4.IsWhole)
    (x0 : Vec F S2048x768 .f32) (x1 : Vec F S512x768 .f32) (x2 : Vec F S512 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (embOut1 x0 x1 x2)) -∗ K ⟨⟩))
      ⊢ wp frame (wpE (defs₀ (F := F)) Variants.none c none) E (cc1__embed_kernel i arg1 harg1 arg2 harg2 arg3 harg3 arg4 harg4) K := by
  simp only [cc1__embed_kernel_eq_skeleton]; unfold cc1__embed_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverEmb _)

/-! ## Region 1: the body obligation, at a generic point -/

/-- What the body is called with at point `t`: the invariant, the core's dues, and every window's current staging buffer
    at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.AttnShared.lean ====
/- Region 2 (the attention kernel, grid [4,16], a scratch accumulator carried between points): what its
   three whole-body runs share — the windows' blocks at a point, the two branch conditions in closed form,
   where the output window is idle, the staging and scratch memrefs, and the region invariant with the
   scratch split out. Everything is stated at a parameter `V`, the TensorCore's buffer contents when the
   region is entered. -/
import proofs.«154334_j37211596652568_2_alg».proof.Proof.Gen.Kernel.Launch
import proofs.«154334_j37211596652568_2_alg».proof.Proof.Gen.Kernel.Skeleton
import proofs.«154334_j37211596652568_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any
    proof data whose array is the entry contents and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any
    proof data whose array is the entry contents and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any
    proof data whose array is the entry contents and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any
    proof data whose array is the entry contents and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any
    proof data whose array is the entry contents and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's branch conditions -/

/-- The condition of the body's first `scf.if`: the second grid coordinate is 0. -/
abbrev cond2_0 (i : grid2.Coords) : Prop := (Scalar.cmpi .ne (Scalar.extui (Scalar.cmpi .eq (BitVec.ofNat 32 (i 1).val) 0#32)) 0#32) = 1#1
/-- It holds at the points ≡ 0 (mod 16) — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second `scf.if`: the second grid coordinate is 15. -/
abbrev cond2_1 (i : grid2.Coords) : Prop := k2_cond2 i = 1#1
/-- It holds at the points ≡ 15 (mod 16) — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
/-- At the points of case A the output window is idle: the case stores nothing into it. -/
theorem idleAt2_5_A : ∀ t : Fin cfg2.N, cond2_0 (grid2.coords t) → ¬cond2_1 (grid2.coords t) → cfg2.idle 5 (grid2.coords t) = true := by decide +kernel
/-- At the points of case A the output's block is not written back. -/
theorem noFlush2_5_A : ∀ t : Fin cfg2.N, cond2_0 (grid2.coords t) → ¬cond2_1 (grid2.coords t) → (cfg2.win 5).flush t = false := by decide +kernel
/-- At the points of case B the output window is idle. -/
theorem idleAt2_5_B : ∀ t : Fin cfg2.N, ¬cond2_0 (grid2.coords t) → ¬cond2_1 (grid2.coords t) → cfg2.idle 5 (grid2.coords t) = true := by decide +kernel
/-- At the points of case B the output's block is not written back. -/
theorem noFlush2_5_B : ∀ t : Fin cfg2.N, ¬cond2_0 (grid2.coords t) → ¬cond2_1 (grid2.coords t) → (cfg2.win 5).flush t = false := by decide +kernel
/-- At the points of case C the output window is live: the case stores into it. -/
theorem liveAt2_5_C : ∀ t : Fin cfg2.N, ¬cond2_0 (grid2.coords t) → cond2_1 (grid2.coords t) → cfg2.idle 5 (grid2.coords t) = false := by decide +kernel

/-! ## The memrefs the body is called with -/

/-- One staging buffer of the output window, through which its contents are stated. -/
abbrev VO2_5 : View sig .tc .vmem S2048x1 .f32 := (Memref.whole cc2_stg5_0 : Memref sig .tc .vmem S2048x1 .f32).view
/-- Each window's current staging memref at point `t`, and its wholeness. -/
abbrev ms2_0 (t : Fin cfg2.N) : Memref sig .tc .vmem S2048x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S2048x1 .f32 := win2_5.stage (cfg2.slots t 5)
abbrev hs2_5 (t : Fin cfg2.N) : (ms2_5 t).IsWhole := hstage2_5 ((cfg2.slots t 5).cast nbuf2_5)
/-- The scratch operand: a whole scoped buffer of the kernel's own, passed beside the windows. -/
abbrev scM2 : Memref sig .tc .vmem S2048x128 .f32 := Memref.whole cc2_scratch0
/-- The scratch the kernel carries between points, as a view: what it holds is stated through it. -/
abbrev VS2 : View sig .tc .vmem S2048x128 .f32 := scM2.view

/-! ## The region invariant with the scratch split out -/

/-- The core's scoped buffers that belong to the other two regions (their staging buffers), each whole at some
    contents: the region never touches them. -/
def otherScoped2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's invariant as the launch hands it over: the other regions' staging buffers at some contents, the
    scratch operand as a memref owned at some contents, and the generator register at some state. -/
theorem PhiA2_eq (c : Dev nD) :
    (Pipeline.ΦA spec2 c : sProp 𝕄)
      = iprop(iprop(otherScoped2 (F := F) c ∗ (∃ d, owns (c : Thread nD τ) scM2 fullShare d)) ∗ (∃ r, prngReg c r)) := by
  unfold Pipeline.ΦA; rw [scopedRest2_eq]; unfold otherScoped2; simp only [scM2, owns_whole]
  refine equiv_iff.mp ⟨?_, ?_⟩
  · show @BIBase.Entails (sProp 𝕄) _ _ _
    iintro ⟨⟨H1, H2, H3, H4, H5, H6, H7, H8, H9, H10, H11, H12, HS⟩, Hg⟩
    iframe
  · show @BIBase.Entails (sProp 𝕄) _ _ _
    iintro ⟨⟨⟨H1, H2, H3, H4, H5, H6, H7, H8, H9, H10, H11, H12⟩, HS⟩, Hg⟩
    iframe

end Cert.Kernel.Fr

end
-- ==== Proof.K.AttnRunA.lean ====
/- Region 2's kernel body run whole in control case A: the first conditional taken (the scratch is zeroed), the second not (no output store) — the points ≡ 0 (mod 16) -/
import proofs.«154334_j37211596652568_2_alg».proof.Proof.K.AttnShared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), in case A — with the proof that on whole memrefs, the
    inputs' at their contents, the idle output's at contents handed back untouched and the scratch at anything
    (the case overwrites it whole), the body runs to the continuation holding the inputs and the output as they
    were and the scratch with its pieces written. -/
noncomputable def kernelRun2_A (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : cond2_0 i) (hc1 : ¬cond2_1 i)
    (x0 : Vec F S2048x512 .bf16) (x1 : Vec F S1024x512 .bf16) (x2 : Vec F S1x1024 .f32) :
    Σ' (L5 : List (View.Piece (Elt F) S2048x1 .f32)), { LS : List (View.Piece (Elt F) S2048x128 .f32) //
      ∀ (x3 : Vec F S1x1 .f32) (x4 : Vec F S1 .f32) (xi5 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨[], ?_, fun x3 x4 xi5 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, H3, H4, H5, ⟨%ds, %fs, -, HS⟩, Hk⟩
    obtain rfl := harg2.eq_unread hf0; obtain rfl := harg3.eq_unread hf1; obtain rfl := harg4.eq_unread hf2
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    isplitl [H4]; · iexact H4
    isplitl [H5]; · iexact H5
    iexists _; iexact HS

end Cert.Kernel.Fr

end
-- ==== Proof.K.AttnRunB.lean ====
/- Region 2's kernel body run whole in control case B: neither conditional taken (the scratch accumulates, no output store) — the points with 0 < t mod 16 < 15 -/
import proofs.«154334_j37211596652568_2_alg».proof.Proof.K.AttnRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), in case B — with the proof that on whole memrefs, the
    inputs' at their contents, the idle output's at contents handed back untouched and the scratch at the contents
    the point before left, the body runs to the continuation holding the inputs and the output as they were and the
    scratch with its pieces written. -/
noncomputable def kernelRun2_B (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : ¬cond2_1 i)
    (x0 : Vec F S2048x512 .bf16) (x1 : Vec F S1024x512 .bf16) (x2 : Vec F S1x1024 .f32) (xs : Vec F S2048x128 .f32) :
    Σ' (L5 : List (View.Piece (Elt F) S2048x1 .f32)), { LS : List (View.Piece (Elt F) S2048x128 .f32) //
      ∀ (x3 : Vec F S1x1 .f32) (x4 : Vec F S1 .f32) (xi5 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨[], ?_, fun x3 x4 xi5 E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, H3, H4, H5, ⟨%fs, %hfs, HS⟩, Hk⟩
    obtain rfl := harg2.eq_unread hf0; obtain rfl := harg3.eq_unread hf1; obtain rfl := harg4.eq_unread hf2
    obtain rfl := harg8.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexact H3
    isplitl [H4]; · iexact H4
    isplitl [H5]; · iexact H5
    iexists _; iexact HS

end Cert.Kernel.Fr

end
-- ==== Proof.K.AttnRunC.lean ====
/- Region 2's kernel body run whole in control case C: the first conditional not taken, the second taken (the scratch accumulates, then the output is stored from it) — the points ≡ 15 (mod 16) -/
import proofs.«154334_j37211596652568_2_alg».proof.Proof.K.AttnRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave, as pieces (last first), in case C — with the proof that on whole memrefs, the
    inputs' at their contents, the output's at anything and the scratch at the contents the point before left, the
    body runs to the continuation holding the inputs as they were and the output and the scratch with their pieces
    written. -/
noncomputable def kernelRun2_C (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) :
    Σ' (L5 : List (View.Piece (Elt F) S2048x1 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS)) -∗ K ⟨⟩))
          ⊢ wp frame (wpE (defs₀ (F := F)) Variants.none c none) E (cc2__attn_kernel i arg2 harg2 arg3 harg3 arg4 harg4 arg5 harg5 arg6 harg6 arg7 harg7 arg8 harg8) K } := by
  refine ⟨?_, ?_, fun E K => ?run⟩
  case run =>
    simp only [cc2__attn_kernel_eq_skeleton]; unfold cc2__attn_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Fr

end
-- ==== Proof.K.AttnFrame.lean ====
/- Region 2 (the attention kernel with its carried scratch accumulator): what the output window's buffer and the
   scratch hold per control case and point by point, the region's proof data at the entry contents `V`, the body
   obligation at every point, and the invariant's entry and exit. -/
import proofs.«154334_j37211596652568_2_alg».proof.Proof.K.AttnRunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- Case A stores nothing into the output window (idle at its points, not written back there): no pieces — a
    placeholder (junk read back) that nothing consults. -/
def out2_A_5 (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : cond2_0 i) (hc1 : ¬cond2_1 i)
    (x0 : Vec F S2048x512 .bf16) (x1 : Vec F S1024x512 .bf16) (x2 : Vec F S1x1024 .f32) : Vec F S2048x1 .f32 :=
  VO2_5.read (Elt F) (VO2_5.writes (Elt F) VO2_5.junk (kernelRun2_A c i arg2 harg2 arg3 harg3 arg4 harg4 arg5 harg5 arg6 harg6 arg7 harg7 arg8 harg8 hc0 hc1 x0 x1 x2).1)

/-- Case A's pieces for the scratch cover it (they tile it: checked by evaluation). -/
theorem scover2_A (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : cond2_0 i) (hc1 : ¬cond2_1 i)
    (x0 : Vec F S2048x512 .bf16) (x1 : Vec F S1024x512 .bf16) (x2 : Vec F S1x1024 .f32) (y : S2048x128.Idx) :
    ∃ pc ∈ (kernelRun2_A c i arg2 harg2 arg3 harg3 arg4 harg4 arg5 harg5 arg6 harg6 arg7 harg7 arg8 harg8 hc0 hc1 x0 x1 x2).2.1, y ∈ pc.1.set :=
  View.cover_of_tiledL (kernelRun2_A c i arg2 harg2 arg3 harg3 arg4 harg4 arg5 harg5 arg6 harg6 arg7 harg7 arg8 harg8 hc0 hc1 x0 x1 x2).2.1 S2048x128.size (by sl_kernel_rfl) y

/-- What case A leaves in the scratch: its pieces read back over junk. -/
def sout2_A (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : cond2_0 i) (hc1 : ¬cond2_1 i)
    (x0 : Vec F S2048x512 .bf16) (x1 : Vec F S1024x512 .bf16) (x2 : Vec F S1x1024 .f32) : Vec F S2048x128 .f32 :=
  VS2.read (Elt F) (VS2.writes (Elt F) VS2.junk (kernelRun2_A c i arg2 harg2 arg3 harg3 arg4 harg4 arg5 harg5 arg6 harg6 arg7 harg7 arg8 harg8 hc0 hc1 x0 x1 x2).2.1)

/-- Case B stores nothing into the output window (idle at its points, not written back there): no pieces — a
    placeholder (junk read back) that nothing consults. -/
def out2_B_5 (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : ¬cond2_1 i)
    (x0 : Vec F S2048x512 .bf16) (x1 : Vec F S1024x512 .bf16) (x2 : Vec F S1x1024 .f32) (xs : Vec F S2048x128 .f32) : Vec F S2048x1 .f32 :=
  VO2_5.read (Elt F) (VO2_5.writes (Elt F) VO2_5.junk (kernelRun2_B c i arg2 harg2 arg3 harg3 arg4 harg4 arg5 harg5 arg6 harg6 arg7 harg7 arg8 harg8 hc0 hc1 x0 x1 x2 xs).1)

/-- Case B's pieces for the scratch cover it (they tile it: checked by evaluation). -/
theorem scover2_B (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : ¬cond2_1 i)
    (x0 : Vec F S2048x512 .bf16) (x1 : Vec F S1024x512 .bf16) (x2 : Vec F S1x1024 .f32) (xs : Vec F S2048x128 .f32) (y : S2048x128.Idx) :
    ∃ pc ∈ (kernelRun2_B c i arg2 harg2 arg3 harg3 arg4 harg4 arg5 harg5 arg6 harg6 arg7 harg7 arg8 harg8 hc0 hc1 x0 x1 x2 xs).2.1, y ∈ pc.1.set :=
  View.cover_of_tiledL (kernelRun2_B c i arg2 harg2 arg3 harg3 arg4 harg4 arg5 harg5 arg6 harg6 arg7 harg7 arg8 harg8 hc0 hc1 x0 x1 x2 xs).2.1 S2048x128.size (by sl_kernel_rfl) y

/-- What case B leaves in the scratch: its pieces read back over junk. -/
def sout2_B (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : ¬cond2_1 i)
    (x0 : Vec F S2048x512 .bf16) (x1 : Vec F S1024x512 .bf16) (x2 : Vec F S1x1024 .f32) (xs : Vec F S2048x128 .f32) : Vec F S2048x128 .f32 :=
  VS2.read (Elt F) (VS2.writes (Elt F) VS2.junk (kernelRun2_B c i arg2 harg2 arg3 harg3 arg4 harg4 arg5 harg5 arg6 harg6 arg7 harg7 arg8 harg8 hc0 hc1 x0 x1 x2 xs).2.1)

/-- Case C's pieces for the output window tile its block, so they cover it. -/
theorem cover2_C_5 (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) (y : S2048x1.Idx) :
    ∃ pc ∈ (kernelRun2_C c i arg2 harg2 arg3 harg3 arg4 harg4 arg5 harg5 arg6 harg6 arg7 harg7 arg8 harg8 hc0 hc1 x0 x1 x2 x3 x4 xs).1, y ∈ pc.1.set :=
  View.cover_of_tiledL (kernelRun2_C c i arg2 harg2 arg3 harg3 arg4 harg4 arg5 harg5 arg6 harg6 arg7 harg7 arg8 harg8 hc0 hc1 x0 x1 x2 x3 x4 xs).1 S2048x1.size (by sl_kernel_rfl) y

/-- What case C leaves in the output window's staging buffer: its pieces read back over junk. -/
def out2_C_5 (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) : Vec F S2048x1 .f32 :=
  VO2_5.read (Elt F) (VO2_5.writes (Elt F) VO2_5.junk (kernelRun2_C c i arg2 harg2 arg3 harg3 arg4 harg4 arg5 harg5 arg6 harg6 arg7 harg7 arg8 harg8 hc0 hc1 x0 x1 x2 x3 x4 xs).1)

/-- Case C's pieces for the scratch cover it (they tile it: checked by evaluation). -/
theorem scover2_C (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) (y : S2048x128.Idx) :
    ∃ pc ∈ (kernelRun2_C c i arg2 harg2 arg3 harg3 arg4 harg4 arg5 harg5 arg6 harg6 arg7 harg7 arg8 harg8 hc0 hc1 x0 x1 x2 x3 x4 xs).2.1, y ∈ pc.1.set :=
  View.cover_of_tiledL (kernelRun2_C c i arg2 harg2 arg3 harg3 arg4 harg4 arg5 harg5 arg6 harg6 arg7 harg7 arg8 harg8 hc0 hc1 x0 x1 x2 x3 x4 xs).2.1 S2048x128.size (by sl_kernel_rfl) y

/-- What case C leaves in the scratch: its pieces read back over junk. -/
def sout2_C (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) : Vec F S2048x128 .f32 :=
  VS2.read (Elt F) (VS2.writes (Elt F) VS2.junk (kernelRun2_C c i arg2 harg2 arg3 harg3 arg4 harg4 arg5 harg5 arg6 harg6 arg7 harg7 arg8 harg8 hc0 hc1 x0 x1 x2 x3 x4 xs).2.1)

section Region2
variable (V : (c : Dev nD) → (b : Ref sig .tc) → Buf (Elt F) ((c : Thread nD τ).loc b))

/-! ## What the output's buffer and the scratch hold after each point -/

/-- The accumulation: what the output window's staging buffer and the carried scratch hold after the body at
    position `n` — the case the closed forms select at `n`, run at the point's memrefs and input blocks, the scratch
    on entry at what the point before left. Both conditions at once is met by no point. -/
def outsAt2 (c : Dev nD) : (n : ℕ) → n < cfg2.N → Vec F S2048x1 .f32 × Vec F S2048x128 .f32
  | 0, hn => (out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 16 = 0 then
      if h1 : (n + 1) % 16 = 15 then
        False.elim (by omega)
      else
        (out2_A_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 16 = 15 then
        (out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2, sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn)).2)
      else
        (out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

/-- `outsAt2` at a point of case A: that case's contents. -/
theorem outsAt2_A (c : Dev nD) (t : Fin cfg2.N) (h0 : t.val % 16 = 0) (h1 : ¬t.val % 16 = 15) :
    outsAt2 V c t.val t.isLt = (out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t), sout2_A c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 16 = 0) (h1 : ¬t.val % 16 = 15) :
    outsAt2 V c t.val t.isLt = (out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2, sout2_B c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 16 = 0) (h1 : t.val % 16 = 15) :
    outsAt2 V c t.val t.isLt = (out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2, sout2_C c (grid2.coords t) (ms2_0 t) (hs2_0 t) (ms2_1 t) (hs2_1 t) (ms2_2 t) (hs2_2 t) (ms2_3 t) (hs2_3 t) (ms2_4 t) (hs2_4 t) (ms2_5 t) (hs2_5 t) scM2 (Memref.isWhole_whole _) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point what the launch hands over (every scoped
    buffer at anything); afterwards the other regions' buffers at anything, the scratch at what the point before left
    in it, and the generator register at some state. -/
def PhiS2 (c : Dev nD) : (n : ℕ) → n ≤ cfg2.N → sProp 𝕄
  | 0, _ => Pipeline.ΦA spec2 c
  | n + 1, hn => iprop(iprop(otherScoped2 (F := F) c ∗ owns (c : Thread nD τ) scM2 fullShare ((outsAt2 V c n hn).2)) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the scratch at that point's contents. -/
theorem PhiS2_succ (c : Dev nD) (n : ℕ) (hn : n < cfg2.N) :
    PhiS2 V c (n + 1) hn = iprop(iprop(otherScoped2 (F := F) c ∗ owns (c : Thread nD τ) scM2 fullShare ((outsAt2 V c n hn).2)) ∗ (∃ r, prngReg c r)) := rfl

/-- Before a point that is not the first: the scratch at what the point before left. -/
theorem PhiS2_pos (c : Dev nD) (n : ℕ) (h : n ≤ cfg2.N) (hz : n ≠ 0) :
    PhiS2 V c n h = iprop(iprop(otherScoped2 (F := F) c ∗ owns (c : Thread nD τ) scM2 fullShare ((outsAt2 V c (n - 1) (by omega)).2)) ∗ (∃ r, prngReg c r)) := by
  cases n with
  | zero => exact absurd rfl hz
  | succ n => rfl

/-! ## The pipeline's proof data -/

/-- The proof data of pipeline 2 on core `c`: the arrays as the region finds them (`V`); after the body at point
    `t` each input's buffer at its block and the output's at `outsAt2`'s first component; the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
/-- The body at any point: the inputs' memrefs hold their blocks; the closed forms say which case the point is in;
    so that case's run applies; the invariant hands the body the scratch at what the point before left (at anything
    at the first point) and takes it back at this point's contents; the other regions' buffers and the generator
    register pass through; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  by_cases h0 : t.val % 16 = 0
  · by_cases h1 : t.val % 16 = 15
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_A t ((hcond2_0 t).mpr h0) (fun h => h1 ((hcond2_1 t).mp h))) (noFlush2_5_A t ((hcond2_0 t).mpr h0) (fun h => h1 ((hcond2_1 t).mp h)))]
      rw [outsAt2_A V c t h0 h1]
      unfold sout2_A; (try dsimp only)
      by_cases hz : t.val = 0
      · rw [PhiS2_castSucc V c t, PhiS2_zero V c _ _ hz, PhiA2_eq]
        iintro ⟨⟨⟨Hoth, HS⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [Hoth HS Hg]
        · isplitl [Hoth HS]
          · isplitl [Hoth]; · iexact Hoth
            unfold owns; iexists _; isplitr
            swap; · iexact HS
            ipureintro; exact View.read_writes_of_cover _ _ _ _ _ (scover2_A c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS2_castSucc V c t, PhiS2_pos V c _ _ hz]
        iintro ⟨⟨⟨Hoth, HS⟩, Hg⟩, Ho, ⟨%d0, H0⟩, ⟨%d1, H1⟩, ⟨%d2, H2⟩, ⟨%d3, H3⟩, ⟨%d4, H4⟩, ⟨%d5, H5⟩⟩
        iapply ((kernelRun2_A c (grid2.coords t) _ _ _ _ _ _ _ _ _ _ _ _ _ _ ((hcond2_0 t).mpr h0) (fun h => h1 ((hcond2_1 t).mp h)) (iblk2 V c 0 t) (iblk2 V c 1 t) (iblk2 V c 2 t)).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, ⟨%es, HS⟩⟩
        isplitl [Hoth HS Hg]
        · isplitl [Hoth HS]
          · isplitl [Hoth]; · iexact Hoth
            unfold owns; iexists _; isplitr
            swap; · iexact HS
            ipureintro; exact View.read_writes_of_cover _ _ _ _ _ (scover2_A c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 16 = 15
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [show (dat2 V c).leavesExact 5 t = owns (c : Thread nD τ) (ms2_5 t) fullShare ((dat2 V c).after 5 t) from by
        unfold Dat.leavesExact; rw [liveAt2_5_C t (fun h => h0 ((hcond2_0 t).mp h)) ((hcond2_1 t).mpr h1)], after2_5]
      rw [outsAt2_C V c t h0 h1]
      unfold out2_C_5 sout2_C; (try dsimp only)
      by_cases hz : t.val = 0
      · exfalso; omega
      · rw [PhiS2_castSucc V c t, PhiS2_pos V c _ _ hz]
        iintro ⟨⟨⟨Hoth, HS⟩, Hg⟩, Ho, ⟨%d0, H0⟩, ⟨%d1, H1⟩, ⟨%d2, H2⟩, ⟨%d3, H3⟩, ⟨%d4, H4⟩, ⟨%d5, H5⟩⟩
        iapply ((kernelRun2_C c (grid2.coords t) _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS]; · iexact HS
        iintro ⟨H0, H1, H2, H3, H4, ⟨%e5, H5⟩, ⟨%es, HS⟩⟩
        isplitl [Hoth HS Hg]
        · isplitl [Hoth HS]
          · isplitl [Hoth]; · iexact Hoth
            unfold owns; iexists _; isplitr
            swap; · iexact HS
            ipureintro; exact View.read_writes_of_cover _ _ _ _ _ (scover2_C c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover2_C_5 c _ _ _ _ _ _ _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t], after2_3]
      rw [show (dat2 V c).leavesExact 4 t = owns (c : Thread nD τ) (ms2_4 t) fullShare ((dat2 V c).after 4 t) from by
        unfold Dat.leavesExact; rw [liveAt2_4 t], after2_4]
      rw [Dat.leavesExact_idle (dat2 V c) 5 t (idleAt2_5_B t (fun h => h0 ((hcond2_0 t).mp h)) (fun h => h1 ((hcond2_1 t).mp h))) (noFlush2_5_B t (fun h => h0 ((hcond2_0 t).mp h)) (fun h => h1 ((hcond2_1 t).mp h)))]
      rw [outsAt2_B V c t h0 h1]
      unfold sout2_B; (try dsimp only)
      by_cases hz : t.val = 0
      · exfalso; omega
      · rw [PhiS2_castSucc V c t, PhiS2_pos V c _ _ hz]
        iintro ⟨⟨⟨Hoth, HS⟩, Hg⟩, Ho, ⟨%d0, H0⟩, ⟨%d1, H1⟩, ⟨%d2, H2⟩, ⟨%d3, H3⟩, ⟨%d4, H4⟩, ⟨%d5, H5⟩⟩
        iapply ((kernelRun2_B c (grid2.coords t) _ _ _ _ _ _ _ _ _ _ _ _ _ _ (fun h => h0 ((hcond2_0 t).mp h)) (fun h => h1 ((hcond2_1 t).mp h)) (iblk2 V c 0 t) (iblk2 V c 1 t) (iblk2 V c 2 t) _).2.2 _ _ _ Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, ⟨%es, HS⟩⟩
        isplitl [Hoth HS Hg]
        · isplitl [Hoth HS]
          · isplitl [Hoth]; · iexact Hoth
            unfold owns; iexists _; isplitr
            swap; · iexact HS
            ipureintro; exact View.read_writes_of_cover _ _ _ _ _ (scover2_B c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the launch's form back: the scratch's named contents are
    forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨Hoth, HS⟩, Hg⟩
  isplitl [Hoth HS]
  · isplitl [Hoth]; · iexact Hoth
    iexists _; iexact HS
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region2

end Cert.Kernel.Fr

end
-- ==== Proof.K.Run.lean ====
/-
  THE RUN of @main: seven host operations, then the three kernel regions one after another.

  The buffer contents at each segment boundary are a fold from the launch memory: after the host operations; after
  region 0 (its arrays at what its write-backs leave); after region 1; after region 2. Each pipeline's proof data is
  taken at its region's entry contents. Every argument array walks back through the fold to its launch contents (no
  host operation writes an argument, and a region only reads one, through an input window), which is the frame; the last
  region's output array ends at what that region's write-backs leave, which is what a value claim reads.
-/
import proofs.«154334_j37211596652568_2_alg».proof.Proof.K.EmbedBody
import proofs.«154334_j37211596652568_2_alg».proof.Proof.K.AttnFrame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main

All the host operations come before region 0; the three regions follow one another with nothing between. -/

/-- Core `c`'s buffers at launch. -/
abbrev W0 : Dev nD → Valuation τ sig (Elt F) := fun c b => (s₀ m ρ).mem ((c : Dev nD), b)
/-- After the host operations (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b

/-- At region 0's exit (region 1's entry): its arrays at what the pipeline leaves (the inputs as entered, the output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit (region 2's entry). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit (what the launch reads at the end). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments through the fold

No host operation writes an argument; a region reads one through an input window (whose array the pipeline leaves as
entered) or bypasses it. So the fold at an argument's buffer walks back to the launch memory. -/

theorem W1_main_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem W1_main_arg6 (c : Dev nD) : W1 m ρ c (Proc.devRef .tc main_arg6) = m ((c : Thread nD τ).loc main_arg6) :=
  (StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl

theorem V1_main_arg0 (c : Dev nD) : V1 m ρ c main_arg0 = m ((c : Thread nD τ).loc main_arg0) := W1_main_arg0 m ρ c
theorem V1_main_arg3 (c : Dev nD) : V1 m ρ c main_arg3 = m ((c : Thread nD τ).loc main_arg3) := W1_main_arg3 m ρ c
theorem V1_main_arg4 (c : Dev nD) : V1 m ρ c main_arg4 = m ((c : Thread nD τ).loc main_arg4) := W1_main_arg4 m ρ c

theorem W2_main_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (W1_main_arg0 m ρ c)
theorem W2_main_arg1 (c : Dev nD) : W2 m ρ c (Proc.devRef .tc main_arg1) = m ((c : Thread nD τ).loc main_arg1) :=
  (W2_of_ne m ρ c main_arg1 (by decide)).trans (W1_main_arg1 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (W1_main_arg3 m ρ c)
theorem W2_main_arg4 (c : Dev nD) : W2 m ρ c (Proc.devRef .tc main_arg4) = m ((c : Thread nD τ).loc main_arg4) :=
  ((W2_arr m ρ c 2).trans (((dat0 (V1 m ρ) c).arrAt_in 2 rfl _).trans (A_eq0 (V1 m ρ) c 2))).trans (W1_main_arg4 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W2_main_arg6 (c : Dev nD) : W2 m ρ c (Proc.devRef .tc main_arg6) = m ((c : Thread nD τ).loc main_arg6) :=
  (W2_of_ne m ρ c main_arg6 (by decide)).trans (W1_main_arg6 m ρ c)

theorem V2_main_arg1 (c : Dev nD) : V2 m ρ c main_arg1 = m ((c : Thread nD τ).loc main_arg1) := W2_main_arg1 m ρ c
theorem V2_main_arg3 (c : Dev nD) : V2 m ρ c main_arg3 = m ((c : Thread nD τ).loc main_arg3) := W2_main_arg3 m ρ c
theorem V2_main_arg4 (c : Dev nD) : V2 m ρ c main_arg4 = m ((c : Thread nD τ).loc main_arg4) := W2_main_arg4 m ρ c

theorem W3_main_arg0 (c : Dev nD) : W3 m ρ c (Proc.devRef .tc main_arg0) = m ((c : Thread nD τ).loc main_arg0) :=
  (W3_of_ne m ρ c main_arg0 (by decide)).trans (W2_main_arg0 m ρ c)
theorem W3_main_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_main_arg1 m ρ c)
theorem W3_main_arg2 (c : Dev nD) : W3 m ρ c (Proc.devRef .tc main_arg2) = m ((c : Thread nD τ).loc main_arg2) :=
  (W3_of_ne m ρ c main_arg2 (by decide)).trans (W2_main_arg2 m ρ c)
theorem W3_main_arg3 (c : Dev nD) : W3 m ρ c (Proc.devRef .tc main_arg3) = m ((c : Thread nD τ).loc main_arg3) :=
  ((W3_arr m ρ c 1).trans (((dat1 (V2 m ρ) c).arrAt_in 1 rfl _).trans (A_eq1 (V2 m ρ) c 1))).trans (W2_main_arg3 m ρ c)
theorem W3_main_arg4 (c : Dev nD) : W3 m ρ c (Proc.devRef .tc main_arg4) = m ((c : Thread nD τ).loc main_arg4) :=
  ((W3_arr m ρ c 2).trans (((dat1 (V2 m ρ) c).arrAt_in 2 rfl _).trans (A_eq1 (V2 m ρ) c 2))).trans (W2_main_arg4 m ρ c)
theorem W3_main_arg5 (c : Dev nD) : W3 m ρ c (Proc.devRef .tc main_arg5) = m ((c : Thread nD τ).loc main_arg5) :=
  (W3_of_ne m ρ c main_arg5 (by decide)).trans (W2_main_arg5 m ρ c)
theorem W3_main_arg6 (c : Dev nD) : W3 m ρ c (Proc.devRef .tc main_arg6) = m ((c : Thread nD τ).loc main_arg6) :=
  (W3_of_ne m ρ c main_arg6 (by decide)).trans (W2_main_arg6 m ρ c)

theorem W4_main_arg0 (c : Dev nD) : W4 m ρ c (Proc.devRef .tc main_arg0) = m ((c : Thread nD τ).loc main_arg0) :=
  (W4_of_ne m ρ c main_arg0 (by decide)).trans (W3_main_arg0 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W4_main_arg5 (c : Dev nD) : W4 m ρ c (Proc.devRef .tc main_arg5) = m ((c : Thread nD τ).loc main_arg5) :=
  ((W4_arr m ρ c 3).trans (((dat2 (V3 m ρ) c).arrAt_in 3 rfl _).trans (A_eq2 (V3 m ρ) c 3))).trans (W3_main_arg5 m ρ c)
theorem W4_main_arg6 (c : Dev nD) : W4 m ρ c (Proc.devRef .tc main_arg6) = m ((c : Thread nD τ).loc main_arg6) :=
  ((W4_arr m ρ c 4).trans (((dat2 (V3 m ρ) c).arrAt_in 4 rfl _).trans (A_eq2 (V3 m ρ) c 4))).trans (W3_main_arg6 m ρ c)

/-- The last region's output array ends at what its write-backs leave. -/
theorem W4_main_v7 (c : Dev nD) : W4 m ρ c (Proc.devRef .tc main_v7) = (dat2 (V3 m ρ) c).arrAt 5 cfg2.N := W4_arr m ρ c 5

/-! ## What region 2 finds in its arrays -/

/-- The normalised rows: region 0's output array after its write-backs (region 1 does not touch it). -/
theorem V3_main_v5 (c : Dev nD) : V3 m ρ c main_v5 = (dat0 (V1 m ρ) c).arrAt 3 cfg0.N :=
  (W3_of_ne m ρ c main_v5 (by decide)).trans (W2_arr m ρ c 3)
/-- The normalised dictionary: region 1's output array after its write-backs. -/
theorem V3_main_v6 (c : Dev nD) : V3 m ρ c main_v6 = (dat1 (V2 m ρ) c).arrAt 3 cfg1.N := W3_arr m ρ c 3
/-- The label row: as the host operations left it (no region before region 2 touches it). -/
theorem V3_main_v4 (c : Dev nD) : V3 m ρ c main_v4 = V1 m ρ c main_v4 :=
  (W3_of_ne m ρ c main_v4 (by decide)).trans (W2_of_ne m ρ c main_v4 (by decide))
theorem V3_main_arg5 (c : Dev nD) : V3 m ρ c main_arg5 = m ((c : Thread nD τ).loc main_arg5) := W3_main_arg5 m ρ c
theorem V3_main_arg6 (c : Dev nD) : V3 m ρ c main_arg6 = m ((c : Thread nD τ).loc main_arg6) := W3_main_arg6 m ρ c

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- A stretch of host operations as a segment, over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments

Each region's arrays are split out of the unscoped buffers at entry and put back at the exit contents; the generator
register goes into the pipeline's invariant and comes back; nothing is owed; the kernels have no semaphore of their
own. Region 2's invariant varies with the point (it names what the carried scratch holds): what the launch hands is
turned into the invariant before the first point, and the invariant after the last point gives the same back. -/

-- a library lemma stated over the pinned configuration of pipeline `p` meets the printed configuration only when
-- unification may unfold plain definitions in a metavariable's type
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline `p` meets the printed configuration only when
-- unification may unfold plain definitions in a metavariable's type
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration of pipeline `p` meets the printed configuration only when
-- unification may unfold plain definitions in a metavariable's type
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V3 m ρ) c).Φ 0 from rfl]
    refine .trans ?_ (hin2 (V3 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V3 m ρ) c).Φ (Fin.last cfg2.N) from rfl]
    refine (hout2 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's four segments in order: the host operations from the launch contents, then the three regions. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]
/-- @main is the run of the segments. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: from any memory with zero counters every weakly fair execution of @main on the TensorCores terminates,
    nothing faulting, and every final state holds, at every unscoped buffer of every core, the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The seven arguments end as launched, read off the last boundary's contents. -/
theorem args_of_all (r : PUnit × MemSt nD τ sig (Elt F))
    (h : ∀ c : Dev nD, ∀ b ∈ Pipeline.ucRefs τ sig, r.2.mem (((c : Thread nD τ)).1, b) = W4 m ρ c b) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(h c _ (mem_uc main_arg0 (by decide))).trans (W4_main_arg0 m ρ c),
   (h c _ (mem_uc main_arg1 (by decide))).trans (W4_main_arg1 m ρ c),
   (h c _ (mem_uc main_arg2 (by decide))).trans (W4_main_arg2 m ρ c),
   (h c _ (mem_uc main_arg3 (by decide))).trans (W4_main_arg3 m ρ c),
   (h c _ (mem_uc main_arg4 (by decide))).trans (W4_main_arg4 m ρ c),
   (h c _ (mem_uc main_arg5 (by decide))).trans (W4_main_arg5 m ρ c),
   (h c _ (mem_uc main_arg6 (by decide))).trans (W4_main_arg6 m ρ c)⟩

/-- THE FRAME, at any `F`: @main terminates, nothing faulting, and every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => args_of_all m ρ r h c) (run_all m ρ)

/-- The same with the output array named: it ends at what region 2's write-backs leave. -/
theorem run_value : θ_run defs (onTc (τ := τ) (main (F := F))) ⟨m, fun _ => 0, ρ⟩ (fun r => ∀ c : Dev nD,
      r.2.mem ((c.tc : Thread nD τ).loc main_v7) = (dat2 (V3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v7 (by decide))).trans (W4_main_v7 m ρ c), args_of_all m ρ r h c⟩) (run_all m ρ)

end Cert.Kernel.Fr

end
-- ==== Proof.KI.Spec.lean ====
/-
  The function both programs compute, index by index, on the extended reals.

  With `e(x)(p,q) = Σ_d x(p,d)·w(q,d) + b(q)` (the linear embedding of a row) and
  `n(x)(p,q) = e(x)(p,q) / max(√(Σ_j e(x)(p,j)²), ε)` (the row scaled to unit length, the length floored at ε),
  the cosine of query row `i` and exemplar row `m` is `a(i,m) = Σ_q n(X)(i,q)·n(D)(m,q)`, the label of exemplar `m` is
  `ℓ(m) = r(m)·2 − 1`, and the result is `σ(h_w · Σ_m a(i,m)³·ℓ(m) + h_b)` with `σ` the logistic function.
  The float words 2, 1 and ε are kept as the words the programs print; both programs print the same ones.
-/
import Idealize.ShloMosaic.PureOps.Ideal
import Idealize.ShloMosaic.Lib.ValueIdx

noncomputable section

namespace Cert.Minerva

open Idealize.ShloMosaic Idealize.ShloMosaic.ValueIdx

/-- The floor of a row's length: the word both programs print for `1e-12`. -/
abbrev eps : EReal := Ideal.ofBits .f32 0x2B8CBCCC#32
/-- The words both programs print for `2` and `1` in the label map. -/
abbrev two : EReal := Ideal.ofBits .f32 0x40000000#32
abbrev one : EReal := Ideal.ofBits .f32 0x3F800000#32

/-- The linear embedding of row `p`, coordinate `q`: `Σ_d x(p,d)·w(q,d) + b(q)`. -/
def lin {R : Nat} (x : FVec Ideal ⟨2, ![R, 768]⟩ .f32) (w : FVec Ideal ⟨2, ![512, 768]⟩ .f32) (b : FVec Ideal ⟨1, ![512]⟩ .f32)
    (p : Fin R) (q : Fin 512) : EReal :=
  (∑ d : Fin 768, x (ix2 p d) * w (ix2 q d)) + b (ix1 q)

/-- A row scaled to unit length, the length floored at `eps`. -/
def unit {R : Nat} (e : Fin R → Fin 512 → EReal) (p : Fin R) (q : Fin 512) : EReal :=
  Ideal.div (e p q) (max (Ideal.sqrt (∑ j : Fin 512, e p j * e p j)) eps)

/-- The normalized embedding of row `p`, coordinate `q`. -/
def emb {R : Nat} (x : FVec Ideal ⟨2, ![R, 768]⟩ .f32) (w : FVec Ideal ⟨2, ![512, 768]⟩ .f32) (b : FVec Ideal ⟨1, ![512]⟩ .f32)
    (p : Fin R) (q : Fin 512) : EReal :=
  unit (lin x w b) p q

/-- The normalized embeddings as an array (what the first two kernel launches leave, and what the reference computes). -/
def embArr {R : Nat} (x : FVec Ideal ⟨2, ![R, 768]⟩ .f32) (w : FVec Ideal ⟨2, ![512, 768]⟩ .f32) (b : FVec Ideal ⟨1, ![512]⟩ .f32) :
    (⟨2, ![R, 512]⟩ : Shape).Idx → EReal :=
  fun j => emb x w b (j 0) (j 1)

/-- The label of exemplar `m`: `r(m)·2 − 1`. -/
def label (r : FVec Ideal ⟨2, ![16384, 1]⟩ .f32) (m : Fin 16384) : EReal :=
  r (ix2 m 0) * two - one

/-- The labels laid out as one row (the array the third kernel launch reads). -/
def labelRow (r : FVec Ideal ⟨2, ![16384, 1]⟩ .f32) : (⟨2, ![1, 16384]⟩ : Shape).Idx → EReal :=
  fun j => label r (j 1)

/-- The cosine of query row `i` and exemplar row `m`, from the two normalized embeddings. -/
def cosine (xn : (⟨2, ![8192, 512]⟩ : Shape).Idx → EReal) (dn : (⟨2, ![16384, 512]⟩ : Shape).Idx → EReal)
    (i : Fin 8192) (m : Fin 16384) : EReal :=
  ∑ q : Fin 512, xn (ix2 i q) * dn (ix2 m q)

/-- The echo of query row `i`: the cubes of its cosines weighted by the labels. -/
def echo (xn : (⟨2, ![8192, 512]⟩ : Shape).Idx → EReal) (dn : (⟨2, ![16384, 512]⟩ : Shape).Idx → EReal)
    (lab : (⟨2, ![1, 16384]⟩ : Shape).Idx → EReal) (i : Fin 8192) : EReal :=
  ∑ m : Fin 16384, (cosine xn dn i m * cosine xn dn i m * cosine xn dn i m) * lab (ix2 0 m)

/-- The head: the logistic function of `echo · h_w + h_b`. -/
def head (xn : (⟨2, ![8192, 512]⟩ : Shape).Idx → EReal) (dn : (⟨2, ![16384, 512]⟩ : Shape).Idx → EReal)
    (lab : (⟨2, ![1, 16384]⟩ : Shape).Idx → EReal) (hw : FVec Ideal ⟨2, ![1, 1]⟩ .f32) (hb : FVec Ideal ⟨1, ![1]⟩ .f32) :
    (⟨2, ![8192, 1]⟩ : Shape).Idx → EReal :=
  fun j => Ideal.logistic (echo xn dn lab (j 0) * hw (ix2 0 0) + hb (ix1 0))

/-- THE RESULT as one function of the seven argument arrays. -/
def G (x : FVec Ideal ⟨2, ![8192, 768]⟩ .f32) (d : FVec Ideal ⟨2, ![16384, 768]⟩ .f32) (r : FVec Ideal ⟨2, ![16384, 1]⟩ .f32)
    (w : FVec Ideal ⟨2, ![512, 768]⟩ .f32) (b : FVec Ideal ⟨1, ![512]⟩ .f32) (hw : FVec Ideal ⟨2, ![1, 1]⟩ .f32)
    (hb : FVec Ideal ⟨1, ![1]⟩ .f32) : (⟨2, ![8192, 1]⟩ : Shape).Idx → EReal :=
  head (embArr x w b) (embArr d w b) (labelRow r) hw hb

end Cert.Minerva

end
-- ==== Proof.KI.LibMatmulRowsRead.lean ====
/-
  A matrix product of two arrays that share their SECOND axis, read entry by entry.

  A product that contracts the second axis of an `[a, k]` array with the second axis of a `[b, k]` array,
  started from the zero accumulator, reads at `(p, q)` the inner product of row `p` of the first with row `q`
  of the second: the sum over `d` of the left operand at `(p, d)` times the right operand at `(q, d)`. (This is
  the product of the first array with the transpose of the second, with no transpose written.)
  The record of dimension numbers is any one whose six axis lists are those of this contraction; at a literal
  record each of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- A product contracting the second axis of the left operand with the second axis of the right one, from the zero
    accumulator, read at `(p, q)`: the inner product of row `p` of the left operand with row `q` of the right one. -/
theorem matmul_rows_ix2_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    matmul D prec x w (constant (F := Ideal) ⟨2, ![a, b]⟩ .f32 0x00000000#32) (ix2 p q)
      = ∑ d : Fin k, x (ix2 p d) * w (ix2 q d) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

end Idealize.ShloMosaic.ValueIdx
-- ==== Proof.KI.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.EmbedPayload.lean ====
/-
  The value the embedding kernel stores, entry by entry, on the extended reals.

  The stored array is computed from a block `x` of rows, the weights `w` and the bias `b` as follows: the products
  `Σ_d x(p,d)·w(q,d)` (a matrix product contracting the second axis of both operands, from the zero accumulator), plus
  the bias laid out as one row and repeated over the rows; the squares of these summed along each row; the sum kept
  as a column, its square root, the maximum with ε, the column repeated over the 512 entries of its row; the quotient.
  On the extended reals a change of format is the identity, so the entry at `(p, q)` is the normalized embedding
  `emb x w b p q` of the specification.
-/
import proofs.«154334_j37211596652568_2_alg».proof.Proof.Gen.KernelIdeal.Skeleton
import proofs.«154334_j37211596652568_2_alg».proof.Proof.KI.Spec
import proofs.«154334_j37211596652568_2_alg».proof.Proof.KI.LibMatmulRowsRead
import proofs.«154334_j37211596652568_2_alg».proof.Proof.KI.LibColumnLayout
import Idealize.ShloMosaic.Lib.ValueLayout
import Idealize.ShloMosaic.PureOps.Ideal.Laws

noncomputable section

namespace Cert.KernelIdeal.Val

open Cert.KernelIdeal Cert.KernelIdeal.Gen
open Idealize.ShloMosaic Idealize.ShloMosaic.ValueIdx

/-- The linear part of the stored array at `(p, q)`: the matrix product plus the bias row. -/
theorem lin_apply (v0 : Vec Ideal S2048x768 .f32) (v2 : Vec Ideal S512x768 .f32) (v5 : Vec Ideal S512 .f32)
    (p : Fin 2048) (q : Fin 512) :
    addf (matmul dot_S2048x768_S512x768_S2048x512_1_1_0_0_n_n none (truncf .bf16 v0 bitsLt_bf16_f32)
        (truncf .bf16 v2 bitsLt_bf16_f32) (constant (F := Ideal) S2048x512 .f32 0x00000000#32))
      (broadcastTo S2048x512 (shapeCast S1x512 v5 shapeCasts_S512_S1x512) broadcasts_S1x512_S2048x512) (ix2 p q)
      = Cert.Minerva.lin v0 v2 v5 p q := by
  refine (addf_apply _ _ _).trans ?_
  unfold Cert.Minerva.lin
  refine congrArg₂ (· + ·) ?_ ?_
  · exact matmul_rows_ix2_apply dot_S2048x768_S512x768_S2048x512_1_1_0_0_n_n rfl rfl rfl rfl rfl rfl none
      (truncf .bf16 v0 bitsLt_bf16_f32) (truncf .bf16 v2 bitsLt_bf16_f32) p q
  · refine (broadcastTo_1b_ab_apply _ broadcasts_S1x512_S2048x512 p q).trans ?_
    exact shapeCast_a_1a_apply v5 shapeCasts_S512_S1x512 (0 : Fin 1) q

/-- The sum along row `p` of the squares of an array's entries: the lane reduction read at `p`. -/
theorem sumsq_apply (e : FVec Ideal S2048x512 .f32) (p : Fin 2048) :
    multiReduction (F := Ideal) .add [1] S2048 (mulf e e) 0x00000000#32 reduces_S2048x512_S2048 (.inl rfl) rfl (ix1 p)
      = ∑ j : Fin 512, e (ix2 p j) * e (ix2 p j) := by
  refine (Ideal.multiReduction_add_single (mulf e e) 0x00000000#32 reduces_S2048x512_S2048 (.inl rfl) rfl (ix1 p)).trans ?_
  show ∑ j : Fin 512, mulf e e (reduces_S2048x512_S2048.lift (ix1 p) j) = _
  refine Finset.sum_congr rfl fun j _ => ?_
  have hj : reduces_S2048x512_S2048.lift (ix1 p) j = ix2 p j := funext fun a => Fin.ext (by
    match a with
    | ⟨0, _⟩ => rfl
    | ⟨1, _⟩ => rfl)
  rw [hj]
  rfl

/-- An array scaled row by row to unit length, the length floored at ε, read at `(p, q)`. -/
theorem unit_apply (e : FVec Ideal S2048x512 .f32) (p : Fin 2048) (q : Fin 512) :
    truncf .bf16 (divf e (broadcastTo S2048x512 (maximumf (sqrt (shapeCast S2048x1
        (multiReduction (F := Ideal) .add [1] S2048 (mulf e e) 0x00000000#32 reduces_S2048x512_S2048 (.inl rfl) rfl)
        shapeCasts_S2048_S2048x1)) (broadcast S2048x1 (Scalar.ofBits .f32 0x2B8CBCCC#32))) broadcasts_S2048x1_S2048x512))
      bitsLt_bf16_f32 (ix2 p q)
      = Ideal.div (e (ix2 p q)) (max (Ideal.sqrt (∑ j : Fin 512, e (ix2 p j) * e (ix2 p j))) Cert.Minerva.eps) := by
  refine (truncf_apply (φ := .f32) (ψ := .bf16) _ bitsLt_bf16_f32 (ix2 p q)).trans ?_
  refine (divf_apply _ _ _).trans ?_
  refine congrArg (Ideal.div (e (ix2 p q))) ?_
  refine (broadcastTo_a1_ab_apply _ broadcasts_S2048x1_S2048x512 p q).trans ?_
  refine (maximumf_apply _ _ _).trans ?_
  refine congrArg₂ max ?_ rfl
  show Ideal.sqrt (shapeCast S2048x1 _ shapeCasts_S2048_S2048x1 (ix2 p (0 : Fin 1))) = _
  refine congrArg Ideal.sqrt ?_
  refine (shapeCast_a_a1_apply _ shapeCasts_S2048_S2048x1 p (0 : Fin 1)).trans ?_
  exact sumsq_apply e p

/-- The value region 0's body stores, at `(p, q)`: the normalized embedding of the row block. -/
theorem k0_pay1_apply (v0 : Vec Ideal S2048x768 .f32) (v2 : Vec Ideal S512x768 .f32) (v5 : Vec Ideal S512 .f32)
    (p : Fin 2048) (q : Fin 512) :
    k0_pay1 (F := Ideal) v0 v2 v5 (ix2 p q) = Cert.Minerva.emb v0 v2 v5 p q :=
  (unit_apply _ p q).trans (congrArg₂ Ideal.div (lin_apply v0 v2 v5 p q)
    (congrArg (fun s => max (Ideal.sqrt s) Cert.Minerva.eps)
      (Finset.sum_congr rfl fun j _ => congrArg₂ (· * ·) (lin_apply v0 v2 v5 p j) (lin_apply v0 v2 v5 p j))))

/-- The value region 1's body stores, at `(p, q)`: the same function of its own row block. -/
theorem k1_pay1_apply (v0 : Vec Ideal S2048x768 .f32) (v2 : Vec Ideal S512x768 .f32) (v5 : Vec Ideal S512 .f32)
    (p : Fin 2048) (q : Fin 512) :
    k1_pay1 (F := Ideal) v0 v2 v5 (ix2 p q) = Cert.Minerva.emb v0 v2 v5 p q :=
  (unit_apply _ p q).trans (congrArg₂ Ideal.div (lin_apply v0 v2 v5 p q)
    (congrArg (fun s => max (Ideal.sqrt s) Cert.Minerva.eps)
      (Finset.sum_congr rfl fun j _ => congrArg₂ (· * ·) (lin_apply v0 v2 v5 p j) (lin_apply v0 v2 v5 p j))))

end Cert.KernelIdeal.Val

end
-- ==== Proof.KI.EmbedValue.lean ====
/-
  Regions 0 and 1 on the extended reals: the array each launch of the embedding kernel leaves.

  At point `t` the body's one store leaves, in the output's staging buffer, the normalized embedding of the three
  blocks it loaded (the payload read entry by entry). The row window's block at `t` is rows `2048·t … 2048·t + 2047` of
  its array, all 768 columns; the weights' and the bias' blocks are the whole arrays; the output's block is the same
  rows, all 512 columns, and every point writes it back. The normalized embedding of a row depends on the operand only
  through that row, so what point `t` writes back is block `t` of the normalized embedding of the whole array; the
  blocks cover the output (row `r` lies in the block of point `r / 2048`), so the output array ends holding it.
-/
import proofs.«154334_j37211596652568_2_alg».proof.Proof.KI.EmbedData
import proofs.«154334_j37211596652568_2_alg».proof.Proof.KI.EmbedPayload
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The normalized embedding of a row depends on the operand only through that row. -/
theorem emb_row_congr {R R' : ℕ} (x : FVec Ideal ⟨2, ![R, 768]⟩ .f32) (x' : FVec Ideal ⟨2, ![R', 768]⟩ .f32)
    (w : FVec Ideal ⟨2, ![512, 768]⟩ .f32) (b : FVec Ideal ⟨1, ![512]⟩ .f32) (p : Fin R) (p' : Fin R') (q : Fin 512)
    (h : ∀ d : Fin 768, x (ix2 p d) = x' (ix2 p' d)) :
    Cert.Minerva.emb x w b p q = Cert.Minerva.emb x' w b p' q := by
  unfold Cert.Minerva.emb Cert.Minerva.unit Cert.Minerva.lin
  simp only [h]

/-! ## Region 0 -/

/-- The value region 0's body leaves in the output's staging buffer, at `(p, q)`: the normalized embedding of the
    three blocks it loaded. -/
theorem embOut0_eq (x0 : Vec Ideal S2048x768 .f32) (x1 : Vec Ideal S512x768 .f32) (x2 : Vec Ideal S512 .f32)
    (p : Fin 2048) (q : Fin 512) :
    embOut0 (F := Ideal) x0 x1 x2 (ix2 p q) = Cert.Minerva.emb x0 x1 x2 p q := by
  unfold embOut0
  rw [View.canon_unit_zero hz2]
  simp only [View.ld_unit_zero (S := S2048x768) hz2, View.ld_unit_zero (S := S512x768) hz2,
    View.ld_unit_zero (S := S512) hz1]
  exact k0_pay1_apply x0 x1 x2 p q

/-- So when the row block holds row `P` of an array `X` at its row `p`, and the other two blocks are the weights and the
    bias, the staging buffer at `(p, q)` holds the normalized embedding of `X` at `(P, q)`. -/
theorem embOut0_block (X : FVec Ideal ⟨2, ![8192, 768]⟩ .f32) (W : Vec Ideal S512x768 .f32) (B : Vec Ideal S512 .f32)
    (x0 : Vec Ideal S2048x768 .f32) (x1 : Vec Ideal S512x768 .f32) (x2 : Vec Ideal S512 .f32)
    (p : Fin 2048) (q : Fin 512) (P : Fin 8192)
    (h0 : ∀ d : Fin 768, x0 (ix2 p d) = X (ix2 P d)) (h1 : x1 = W) (h2 : x2 = B) :
    embOut0 (F := Ideal) x0 x1 x2 (ix2 p q) = Cert.Minerva.embArr X W B (ix2 P q) := by
  subst h1 h2
  refine (embOut0_eq x0 x1 x2 p q).trans ?_
  exact emb_row_congr x0 X x1 x2 p P q h0

/-- The printed index maps over the grid: the row windows' block index is the point on the row axis and zero on the
    other; the weights' and the bias' block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- WHAT POINT `t` WRITES BACK is block `t` of the normalized embedding of the arrays the region finds. -/
theorem flushed0_eq (c : Dev nD) (t : Fin cfg0.N) :
    (dat0 (F := Ideal) V c).flushed 3 t = ((cfg0.win 3).blk t).view.read (Elt Ideal)
      (Cert.Minerva.embArr (V c main_arg0) (V c main_arg3) (V c main_arg4)) := by
  show (cfg0.win 3).cut (grid0.coords t) ((dat0 V c).after 3 t) = _
  rw [after0_3]
  obtain ⟨e0, e1, e2, e3, e4, e5, e6⟩ := idx_facts0 t
  have hN : t.val < 4 := Nat.lt_of_lt_of_eq t.isLt N_0
  funext j
  have hj0 : (j 0).val < 2048 := (j 0).isLt
  have hj1 : (j 1).val < 512 := (j 1).isLt
  have hy : (cfg0.win 3).xinj (grid0.coords t) j = ix2 (⟨(j 0).val, hj0⟩ : Fin 2048) (⟨(j 1).val, hj1⟩ : Fin 512) :=
    funext fun a => by
      match a with
      | ⟨0, _⟩ => rfl
      | ⟨1, _⟩ => rfl
  have hi : ((cfg0.win 3).blk t).view.emb j
      = ix2 (⟨t.val * 2048 + (j 0).val, by omega⟩ : Fin 8192) (⟨(j 1).val, hj1⟩ : Fin 512) :=
    funext fun a => Fin.ext (by
      match a with
      | ⟨0, _⟩ => show win0_3.index t (0 : Fin 2) * 2048 + 1 * (j 0).val = t.val * 2048 + (j 0).val; rw [e5]; omega
      | ⟨1, _⟩ => show win0_3.index t (1 : Fin 2) * 512 + 1 * (j 1).val = (j 1).val; rw [e6]; omega)
  show embOut0 (iblk0 V c 0 t) (iblk0 V c 1 t) (iblk0 V c 2 t) ((cfg0.win 3).xinj (grid0.coords t) j)
    = Cert.Minerva.embArr (V c main_arg0) (V c main_arg3) (V c main_arg4) (((cfg0.win 3).blk t).view.emb j)
  rw [hy, hi]
  refine embOut0_block (V c main_arg0) (V c main_arg3) (V c main_arg4) (iblk0 V c 0 t) (iblk0 V c 1 t) (iblk0 V c 2 t)
    ⟨(j 0).val, hj0⟩ ⟨(j 1).val, hj1⟩ ⟨t.val * 2048 + (j 0).val, by omega⟩ (fun d => ?_) (funext fun y => ?_) (funext fun y => ?_)
  · show V c main_arg0 (((cfg0.win 0).blk t).view.emb (ix2 (⟨(j 0).val, hj0⟩ : Fin 2048) d)) = V c main_arg0 (ix2 _ d)
    refine congrArg (V c main_arg0) (funext fun a => Fin.ext ?_)
    match a with
    | ⟨0, _⟩ => show win0_0.index t (0 : Fin 2) * 2048 + 1 * (j 0).val = t.val * 2048 + (j 0).val; rw [e0]; omega
    | ⟨1, _⟩ => show win0_0.index t (1 : Fin 2) * 768 + 1 * d.val = d.val; rw [e1]; omega
  · show V c main_arg3 (((cfg0.win 1).blk t).view.emb y) = V c main_arg3 y
    refine congrArg (V c main_arg3) (funext fun a => Fin.ext ?_)
    match a with
    | ⟨0, _⟩ => show win0_1.index t (0 : Fin 2) * 512 + 1 * (y 0).val = (y 0).val; rw [e2]; omega
    | ⟨1, _⟩ => show win0_1.index t (1 : Fin 2) * 768 + 1 * (y 1).val = (y 1).val; rw [e3]; omega
  · show V c main_arg4 (((cfg0.win 2).blk t).view.emb y) = V c main_arg4 y
    refine congrArg (V c main_arg4) (funext fun a => Fin.ext ?_)
    match a with
    | ⟨0, _⟩ => show win0_2.index t (0 : Fin 1) * 512 + 1 * (y 0).val = (y 0).val; rw [e4]; omega

/-- An index of the output array is in point `t`'s block iff each coordinate is in the block's range on its axis. -/
theorem mem_blk0 (t : Fin cfg0.N) (i : S8192x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v5).slice (win0_3.rect t)).set ↔ _
  rw [View.set_slice_whole, Rect.mem_set_unit]
  exact Iff.rfl

/-- Every index of the output array is in some point's block: row `r` is in the block of point `r / 2048`. -/
theorem cover0 (i : S8192x512.Idx) :
    ∃ t : Fin cfg0.N, (cfg0.win 3).flush t = true ∧ i ∈ ((cfg0.win 3).blk t).view.set := by
  have hi0 : (i 0).val < 8192 := (i 0).isLt
  have hi1 : (i 1).val < 512 := (i 1).isLt
  have hN : cfg0.N = 4 := N_0
  refine ⟨⟨(i 0).val / 2048, by rw [hN]; omega⟩, flush0_3 _, ?_⟩
  obtain ⟨e0, e1, e2, e3, e4, e5, e6⟩ := idx_facts0 ⟨(i 0).val / 2048, by rw [hN]; omega⟩
  rw [mem_blk0]
  intro a
  match a with
  | ⟨0, _⟩ =>
    show win0_3.index ⟨(i 0).val / 2048, _⟩ (0 : Fin 2) * 2048 ≤ (i 0).val
      ∧ (i 0).val < win0_3.index ⟨(i 0).val / 2048, _⟩ (0 : Fin 2) * 2048 + 2048
    rw [e5]; show (i 0).val / 2048 * 2048 ≤ (i 0).val ∧ (i 0).val < (i 0).val / 2048 * 2048 + 2048; omega
  | ⟨1, _⟩ =>
    show win0_3.index ⟨(i 0).val / 2048, _⟩ (1 : Fin 2) * 512 ≤ (i 1).val
      ∧ (i 1).val < win0_3.index ⟨(i 0).val / 2048, _⟩ (1 : Fin 2) * 512 + 512
    rw [e6]; omega

/-- THE ARRAY region 0 leaves: the normalized embedding of the arrays it found. -/
theorem final0 (c : Dev nD) : (dat0 (F := Ideal) V c).arrAt 3 cfg0.N
    = Cert.Minerva.embArr (V c main_arg0) (V c main_arg3) (V c main_arg4) :=
  (dat0 (F := Ideal) V c).arrAt_eq_of_cover 3 (Cert.Minerva.embArr (V c main_arg0) (V c main_arg3) (V c main_arg4))
    (fun t _ => flushed0_eq V c t) cover0

/-! ## Region 1 -/

/-- The value region 1's body leaves in the output's staging buffer, at `(p, q)`: the normalized embedding of the
    three blocks it loaded. -/
theorem embOut1_eq (x0 : Vec Ideal S2048x768 .f32) (x1 : Vec Ideal S512x768 .f32) (x2 : Vec Ideal S512 .f32)
    (p : Fin 2048) (q : Fin 512) :
    embOut1 (F := Ideal) x0 x1 x2 (ix2 p q) = Cert.Minerva.emb x0 x1 x2 p q := by
  unfold embOut1
  rw [View.canon_unit_zero hz2]
  simp only [View.ld_unit_zero (S := S2048x768) hz2, View.ld_unit_zero (S := S512x768) hz2,
    View.ld_unit_zero (S := S512) hz1]
  exact k1_pay1_apply x0 x1 x2 p q

/-- So when the row block holds row `P` of an array `X` at its row `p`, and the other two blocks are the weights and the
    bias, the staging buffer at `(p, q)` holds the normalized embedding of `X` at `(P, q)`. -/
theorem embOut1_block (X : FVec Ideal ⟨2, ![16384, 768]⟩ .f32) (W : Vec Ideal S512x768 .f32) (B : Vec Ideal S512 .f32)
    (x0 : Vec Ideal S2048x768 .f32) (x1 : Vec Ideal S512x768 .f32) (x2 : Vec Ideal S512 .f32)
    (p : Fin 2048) (q : Fin 512) (P : Fin 16384)
    (h0 : ∀ d : Fin 768, x0 (ix2 p d) = X (ix2 P d)) (h1 : x1 = W) (h2 : x2 = B) :
    embOut1 (F := Ideal) x0 x1 x2 (ix2 p q) = Cert.Minerva.embArr X W B (ix2 P q) := by
  subst h1 h2
  refine (embOut1_eq x0 x1 x2 p q).trans ?_
  exact emb_row_congr x0 X x1 x2 p P q h0

/-- The printed index maps over the grid: the row windows' block index is the point on the row axis and zero on the
    other; the weights' and the bias' block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- WHAT POINT `t` WRITES BACK is block `t` of the normalized embedding of the arrays the region finds. -/
theorem flushed1_eq (c : Dev nD) (t : Fin cfg1.N) :
    (dat1 (F := Ideal) V c).flushed 3 t = ((cfg1.win 3).blk t).view.read (Elt Ideal)
      (Cert.Minerva.embArr (V c main_arg1) (V c main_arg3) (V c main_arg4)) := by
  show (cfg1.win 3).cut (grid1.coords t) ((dat1 V c).after 3 t) = _
  rw [after1_3]
  obtain ⟨e0, e1, e2, e3, e4, e5, e6⟩ := idx_facts1 t
  have hN : t.val < 8 := Nat.lt_of_lt_of_eq t.isLt N_1
  funext j
  have hj0 : (j 0).val < 2048 := (j 0).isLt
  have hj1 : (j 1).val < 512 := (j 1).isLt
  have hy : (cfg1.win 3).xinj (grid1.coords t) j = ix2 (⟨(j 0).val, hj0⟩ : Fin 2048) (⟨(j 1).val, hj1⟩ : Fin 512) :=
    funext fun a => by
      match a with
      | ⟨0, _⟩ => rfl
      | ⟨1, _⟩ => rfl
  have hi : ((cfg1.win 3).blk t).view.emb j
      = ix2 (⟨t.val * 2048 + (j 0).val, by omega⟩ : Fin 16384) (⟨(j 1).val, hj1⟩ : Fin 512) :=
    funext fun a => Fin.ext (by
      match a with
      | ⟨0, _⟩ => show win1_3.index t (0 : Fin 2) * 2048 + 1 * (j 0).val = t.val * 2048 + (j 0).val; rw [e5]; omega
      | ⟨1, _⟩ => show win1_3.index t (1 : Fin 2) * 512 + 1 * (j 1).val = (j 1).val; rw [e6]; omega)
  show embOut1 (iblk1 V c 0 t) (iblk1 V c 1 t) (iblk1 V c 2 t) ((cfg1.win 3).xinj (grid1.coords t) j)
    = Cert.Minerva.embArr (V c main_arg1) (V c main_arg3) (V c main_arg4) (((cfg1.win 3).blk t).view.emb j)
  rw [hy, hi]
  refine embOut1_block (V c main_arg1) (V c main_arg3) (V c main_arg4) (iblk1 V c 0 t) (iblk1 V c 1 t) (iblk1 V c 2 t)
    ⟨(j 0).val, hj0⟩ ⟨(j 1).val, hj1⟩ ⟨t.val * 2048 + (j 0).val, by omega⟩ (fun d => ?_) (funext fun y => ?_) (funext fun y => ?_)
  · show V c main_arg1 (((cfg1.win 0).blk t).view.emb (ix2 (⟨(j 0).val, hj0⟩ : Fin 2048) d)) = V c main_arg1 (ix2 _ d)
    refine congrArg (V c main_arg1) (funext fun a => Fin.ext ?_)
    match a with
    | ⟨0, _⟩ => show win1_0.index t (0 : Fin 2) * 2048 + 1 * (j 0).val = t.val * 2048 + (j 0).val; rw [e0]; omega
    | ⟨1, _⟩ => show win1_0.index t (1 : Fin 2) * 768 + 1 * d.val = d.val; rw [e1]; omega
  · show V c main_arg3 (((cfg1.win 1).blk t).view.emb y) = V c main_arg3 y
    refine congrArg (V c main_arg3) (funext fun a => Fin.ext ?_)
    match a with
    | ⟨0, _⟩ => show win1_1.index t (0 : Fin 2) * 512 + 1 * (y 0).val = (y 0).val; rw [e2]; omega
    | ⟨1, _⟩ => show win1_1.index t (1 : Fin 2) * 768 + 1 * (y 1).val = (y 1).val; rw [e3]; omega
  · show V c main_arg4 (((cfg1.win 2).blk t).view.emb y) = V c main_arg4 y
    refine congrArg (V c main_arg4) (funext fun a => Fin.ext ?_)
    match a with
    | ⟨0, _⟩ => show win1_2.index t (0 : Fin 1) * 512 + 1 * (y 0).val = (y 0).val; rw [e4]; omega

/-- An index of the output array is in point `t`'s block iff each coordinate is in the block's range on its axis. -/
theorem mem_blk1 (t : Fin cfg1.N) (i : S16384x512.Idx) :
    i ∈ ((cfg1.win 3).blk t).view.set ↔ ∀ a : Fin 2, win1_3.index t a * S2048x512.size a ≤ (i a).val
      ∧ (i a).val < win1_3.index t a * S2048x512.size a + S2048x512.size a := by
  show i ∈ ((View.whole main_v6).slice (win1_3.rect t)).set ↔ _
  rw [View.set_slice_whole, Rect.mem_set_unit]
  exact Iff.rfl

/-- Every index of the output array is in some point's block: row `r` is in the block of point `r / 2048`. -/
theorem cover1 (i : S16384x512.Idx) :
    ∃ t : Fin cfg1.N, (cfg1.win 3).flush t = true ∧ i ∈ ((cfg1.win 3).blk t).view.set := by
  have hi0 : (i 0).val < 16384 := (i 0).isLt
  have hi1 : (i 1).val < 512 := (i 1).isLt
  have hN : cfg1.N = 8 := N_1
  refine ⟨⟨(i 0).val / 2048, by rw [hN]; omega⟩, flush1_3 _, ?_⟩
  obtain ⟨e0, e1, e2, e3, e4, e5, e6⟩ := idx_facts1 ⟨(i 0).val / 2048, by rw [hN]; omega⟩
  rw [mem_blk1]
  intro a
  match a with
  | ⟨0, _⟩ =>
    show win1_3.index ⟨(i 0).val / 2048, _⟩ (0 : Fin 2) * 2048 ≤ (i 0).val
      ∧ (i 0).val < win1_3.index ⟨(i 0).val / 2048, _⟩ (0 : Fin 2) * 2048 + 2048
    rw [e5]; show (i 0).val / 2048 * 2048 ≤ (i 0).val ∧ (i 0).val < (i 0).val / 2048 * 2048 + 2048; omega
  | ⟨1, _⟩ =>
    show win1_3.index ⟨(i 0).val / 2048, _⟩ (1 : Fin 2) * 512 ≤ (i 1).val
      ∧ (i 1).val < win1_3.index ⟨(i 0).val / 2048, _⟩ (1 : Fin 2) * 512 + 512
    rw [e6]; omega

/-- THE ARRAY region 1 leaves: the normalized embedding of the arrays it found. -/
theorem final1 (c : Dev nD) : (dat1 (F := Ideal) V c).arrAt 3 cfg1.N
    = Cert.Minerva.embArr (V c main_arg1) (V c main_arg3) (V c main_arg4) :=
  (dat1 (F := Ideal) V c).arrAt_eq_of_cover 3 (Cert.Minerva.embArr (V c main_arg1) (V c main_arg3) (V c main_arg4))
    (fun t _ => flushed1_eq V c t) cover1

end Cert.KernelIdeal.Val

end
-- ==== Proof.KI.AttnPieces.lean ====
/- Region 2: what each control case's found pieces read back as — the scratch after the body is the accumulation
   payload of the input blocks over the scratch on entry (the zero fill in case A), and case C's output block is the
   output payload of that accumulation. Generic in the float operations. -/
import proofs.«154334_j37211596652568_2_alg».proof.Proof.KI.AttnFrame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The origin of a rank-2 shape, as the function the canonical-form lemmas take. -/
theorem hz2 : (![0, 0] : Fin 2 → Nat) = fun _ => 0 := funext fun a => by fin_cases a <;> rfl
/-- The origin of a rank-1 shape. -/
theorem hz1 : (![0] : Fin 1 → Nat) = fun _ => 0 := funext fun a => by fin_cases a <;> rfl

/-- Case A: the scratch is zero-filled, then the accumulation step is stored over it — what it holds is the
    accumulation payload of the input blocks over the zero fill. -/
theorem sout2_A_eq (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : cond2_0 i) (hc1 : ¬cond2_1 i)
    (x0 : Vec F S2048x512 .bf16) (x1 : Vec F S1024x512 .bf16) (x2 : Vec F S1x1024 .f32) :
    sout2_A c i arg2 harg2 arg3 harg3 arg4 harg4 arg5 harg5 arg6 harg6 arg7 harg7 arg8 harg8 hc0 hc1 x0 x1 x2 = k2_pay2 x0 x1 x2 (k2_pay1 (F := F)) := by
  unfold sout2_A
  rw [View.read_writes_eq_canon _ _ _ (scover2_A c i arg2 harg2 arg3 harg3 arg4 harg4 arg5 harg5 arg6 harg6 arg7 harg7 arg8 harg8 hc0 hc1 x0 x1 x2)]
  unfold kernelRun2_A
  dsimp only
  sl_unfold_words
  rw [View.canon_cons_unit_zero (S := S2048x128) hz2, View.readCov_unit_zero (S := S2048x128) _ hz2]
  simp only [View.readAt_eq_ld, harg2.read_unread, harg3.read_unread, harg4.read_unread, View.ld_unit_zero (S := S2048x512) hz2, View.ld_unit_zero (S := S1024x512) hz2, View.ld_unit_zero (S := S1x1024) hz2]

/-- Case B: one store over the scratch — the accumulation payload of the input blocks over the scratch on entry. -/
theorem sout2_B_eq (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : ¬cond2_1 i)
    (x0 : Vec F S2048x512 .bf16) (x1 : Vec F S1024x512 .bf16) (x2 : Vec F S1x1024 .f32) (xs : Vec F S2048x128 .f32) :
    sout2_B c i arg2 harg2 arg3 harg3 arg4 harg4 arg5 harg5 arg6 harg6 arg7 harg7 arg8 harg8 hc0 hc1 x0 x1 x2 xs = k2_pay2 x0 x1 x2 xs := by
  unfold sout2_B
  rw [View.read_writes_eq_canon _ _ _ (scover2_B c i arg2 harg2 arg3 harg3 arg4 harg4 arg5 harg5 arg6 harg6 arg7 harg7 arg8 harg8 hc0 hc1 x0 x1 x2 xs)]
  unfold kernelRun2_B
  dsimp only
  rw [View.canon_unit_zero (S := S2048x128) hz2]
  simp only [View.readAt_eq_ld, harg2.read_unread, harg3.read_unread, harg4.read_unread, harg8.read_unread, View.ld_unit_zero (S := S2048x512) hz2, View.ld_unit_zero (S := S1024x512) hz2, View.ld_unit_zero (S := S1x1024) hz2, View.ld_unit_zero (S := S2048x128) hz2]

/-- Case C leaves the scratch as case B does. -/
theorem sout2_C_eq (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) :
    sout2_C c i arg2 harg2 arg3 harg3 arg4 harg4 arg5 harg5 arg6 harg6 arg7 harg7 arg8 harg8 hc0 hc1 x0 x1 x2 x3 x4 xs = k2_pay2 x0 x1 x2 xs := by
  unfold sout2_C
  rw [View.read_writes_eq_canon _ _ _ (scover2_C c i arg2 harg2 arg3 harg3 arg4 harg4 arg5 harg5 arg6 harg6 arg7 harg7 arg8 harg8 hc0 hc1 x0 x1 x2 x3 x4 xs)]
  unfold kernelRun2_C
  dsimp only
  sl_unfold_words
  rw [View.canon_unit_zero (S := S2048x128) hz2]
  simp only [View.readAt_eq_ld, harg2.read_unread, harg3.read_unread, harg4.read_unread, harg8.read_unread, View.ld_unit_zero (S := S2048x512) hz2, View.ld_unit_zero (S := S1024x512) hz2, View.ld_unit_zero (S := S1x1024) hz2, View.ld_unit_zero (S := S2048x128) hz2]

/-- Case C's output block: the output payload of the scratch just accumulated, with the scalar weight and bias. -/
theorem out2_C_5_eq (c : Dev nD) (i : grid2.Coords) (arg2 : Memref sig .tc .vmem S2048x512 .bf16) (harg2 : arg2.IsWhole) (arg3 : Memref sig .tc .vmem S1024x512 .bf16) (harg3 : arg3.IsWhole) (arg4 : Memref sig .tc .vmem S1x1024 .f32) (harg4 : arg4.IsWhole) (arg5 : Memref sig .tc .vmem S1x1 .f32) (harg5 : arg5.IsWhole) (arg6 : Memref sig .tc .vmem S1 .f32) (harg6 : arg6.IsWhole) (arg7 : Memref sig .tc .vmem S2048x1 .f32) (harg7 : arg7.IsWhole) (arg8 : Memref sig .tc .vmem S2048x128 .f32) (harg8 : arg8.IsWhole) (hc0 : ¬cond2_0 i) (hc1 : cond2_1 i)
    (x0 : Vec F S2048x512 .bf16) (x1 : Vec F S1024x512 .bf16) (x2 : Vec F S1x1024 .f32) (x3 : Vec F S1x1 .f32) (x4 : Vec F S1 .f32) (xs : Vec F S2048x128 .f32) :
    out2_C_5 c i arg2 harg2 arg3 harg3 arg4 harg4 arg5 harg5 arg6 harg6 arg7 harg7 arg8 harg8 hc0 hc1 x0 x1 x2 x3 x4 xs = k2_pay3 (k2_pay2 x0 x1 x2 xs) x3 x4 := by
  unfold out2_C_5
  rw [View.read_writes_eq_canon _ _ _ (cover2_C_5 c i arg2 harg2 arg3 harg3 arg4 harg4 arg5 harg5 arg6 harg6 arg7 harg7 arg8 harg8 hc0 hc1 x0 x1 x2 x3 x4 xs)]
  unfold kernelRun2_C
  dsimp only
  sl_unfold_words
  rw [View.canon_unit_zero (S := S2048x1) hz2, View.readCov_unit_zero (S := S2048x128) _ hz2]
  simp only [View.readAt_eq_ld, harg2.read_unread, harg3.read_unread, harg4.read_unread, harg5.read_unread, harg6.read_unread, harg8.read_unread, View.ld_unit_zero (S := S2048x512) hz2, View.ld_unit_zero (S := S1024x512) hz2, View.ld_unit_zero (S := S1x1024) hz2, View.ld_unit_zero (S := S2048x128) hz2, View.ld_unit_zero (S := S1x1) hz2, View.ld_unit_zero (S := S1) hz1]

end Cert.KernelIdeal.Fr

end
-- ==== Proof.KI.AttnPayload.lean ====
/-
  Region 2's three stored values, read entry by entry on the extended reals.

  One grid point of the third launch handles a block of 2048 query rows and a block of 1024 exemplar rows. With
  `c(p,j) = Σ_q xn(p,q)·dn(j,q)` the cosine of query row `p` and exemplar row `j` of the two blocks, the point adds to
  the running array, at `(p,l)`, the eight terms `c(p,j)³·lab(j)` whose exemplar `j = 128·g + l` sits at lane `l` of
  group `g`. The running array is reset to zero at the first point of a row block; at the last one the output column is
  the logistic function of (the sum of the running array's 128 lanes) · h_w + h_b.
-/
import proofs.«154334_j37211596652568_2_alg».proof.Proof.Gen.KernelIdeal.Skeleton
import proofs.«154334_j37211596652568_2_alg».proof.Proof.KI.LibMatmulRowsRead
import proofs.«154334_j37211596652568_2_alg».proof.Proof.KI.LibColumnLayout
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx

/-- The exemplar, within a block of 1024, at lane `l` of group `g`. -/
def lane (g : Fin 8) (l : Fin 128) : Fin 1024 := ⟨g.val * 128 + l.val, by have := g.isLt; have := l.isLt; omega⟩

/-- The cosine of query row `p` and exemplar row `j` of two blocks of normalized embeddings. -/
def blockCos (x0 : Vec Ideal S2048x512 .bf16) (x1 : Vec Ideal S1024x512 .bf16) (p : Fin 2048) (j : Fin 1024) : EReal :=
  ∑ q : Fin 512, x0 (ix2 p q) * x1 (ix2 j q)

/-- One term of the echo: the cube of a cosine weighted by the exemplar's label. -/
def blockTerm (x0 : Vec Ideal S2048x512 .bf16) (x1 : Vec Ideal S1024x512 .bf16) (x2 : Vec Ideal S1x1024 .f32)
    (p : Fin 2048) (j : Fin 1024) : EReal :=
  (blockCos x0 x1 p j * blockCos x0 x1 p j * blockCos x0 x1 p j) * x2 (ix2 0 j)

/-- The reset value is zero everywhere. -/
theorem k2_pay1_apply (j : S2048x128.Idx) : k2_pay1 (F := Ideal) j = 0 := by
  unfold k2_pay1
  rw [shapeCast_self]
  exact Ideal.ofBits_zero_f32

/-- The point's update at `(p,l)`: what the running array held there plus the eight terms of lane `l`. -/
theorem k2_pay2_apply (x0 : Vec Ideal S2048x512 .bf16) (x1 : Vec Ideal S1024x512 .bf16) (x2 : Vec Ideal S1x1024 .f32)
    (xs : Vec Ideal S2048x128 .f32) (p : Fin 2048) (l : Fin 128) :
    k2_pay2 (F := Ideal) x0 x1 x2 xs (ix2 p l) = xs (ix2 p l) + ∑ g : Fin 8, blockTerm x0 x1 x2 p (lane g l) := by
  unfold k2_pay2
  simp only [shapeCast_self]
  refine congrArg (xs (ix2 p l) + ·) ?_
  refine (Ideal.multiReduction_add_single _ _ _ _ _ (ix2 p l)).trans ?_
  show ∑ g : Fin 8, _ = _
  refine Finset.sum_congr rfl fun g _ => ?_
  have hidx : (reduces_S2048x8x128_S2048x128.lift (ix2 p l) g : S2048x8x128.Idx) = ix3 p g l := by
    funext a
    match a with
    | ⟨0, _⟩ => exact Fin.ext rfl
    | ⟨1, _⟩ => exact Fin.ext rfl
    | ⟨2, _⟩ => exact Fin.ext rfl
  rw [hidx]
  refine (shapeCast_apply _ shapeCasts_S2048x1024_S2048x8x128 (ix3 p g l) (ix2 p (lane g l)) ?_).trans ?_
  · rw [Shape.rowMajor_val_two, Shape.rowMajor_val_three]
    show p.val * 1024 + (g.val * 128 + l.val) = (p.val * 8 + g.val) * 128 + l.val
    ring
  show (_ * _ * _) * _ = _
  unfold blockTerm blockCos
  refine congrArg₂ (· * ·) ?_ ?_
  · have hc := matmul_rows_ix2_apply (φ₁ := .bf16) (φ₂ := .bf16) dot_S2048x512_S1024x512_S2048x1024_1_1_0_0_n_n rfl rfl rfl rfl rfl rfl none x0 x1 p (lane g l)
    rw [hc]
  · exact broadcastTo_1b_ab_apply x2 broadcasts_S1x1024_S2048x1024 p (lane g l)

/-- The output column at row `p`: the logistic function of (the 128 lanes of the running array summed) · h_w + h_b. -/
theorem k2_pay3_apply (acc : Vec Ideal S2048x128 .f32) (x3 : Vec Ideal S1x1 .f32) (x4 : Vec Ideal S1 .f32)
    (p : Fin 2048) (u : Fin 1) :
    k2_pay3 (F := Ideal) acc x3 x4 (ix2 p u)
      = Ideal.logistic ((∑ l : Fin 128, acc (ix2 p l)) * x3 (ix2 0 0) + x4 (ix1 0)) := by
  unfold k2_pay3
  show Ideal.logistic (_ * _ + _) = _
  refine congrArg Ideal.logistic ?_
  refine congrArg₂ (· + ·) (congrArg₂ (· * ·) ?_ ?_) ?_
  · refine (shapeCast_a_a1_apply _ shapeCasts_S2048_S2048x1 p u).trans ?_
    refine (Ideal.multiReduction_add_single _ _ _ _ _ (ix1 p)).trans ?_
    show ∑ l : Fin 128, _ = _
    refine Finset.sum_congr rfl fun l _ => ?_
    refine congrArg acc ?_
    funext a
    match a with
    | ⟨0, _⟩ => exact Fin.ext rfl
    | ⟨1, _⟩ => exact Fin.ext rfl
  · show x3 _ = x3 _
    refine congrArg x3 ?_
    funext a
    match a with
    | ⟨0, _⟩ => exact Fin.ext rfl
    | ⟨1, _⟩ => exact Fin.ext rfl
  · show x4 _ = x4 _
    refine congrArg x4 ?_
    funext a
    match a with
    | ⟨0, _⟩ => exact Fin.ext rfl

end Cert.KernelIdeal.Val

end
-- ==== Proof.KI.AttnBlocks.lean ====
/-
  Region 2's windows as pieces of their arrays. At grid point `t = 16·i + k` the query window is rows
  `2048·i …` of the normalized queries, the exemplar window rows `1024·k …` of the normalized exemplars, the label
  window columns `1024·k …` of the label row, the two head windows the whole of `h_w` and `h_b`, and the output
  window rows `2048·i …` of the result column.
-/
import proofs.«154334_j37211596652568_2_alg».proof.Proof.KI.AttnShared
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem

/-- The printed index maps, decided once over the 64 grid points. -/
theorem idx_facts2 : ∀ t : Fin cfg2.N,
    win2_0.index t (0 : Fin 2) = t.val / 16 ∧ win2_0.index t (1 : Fin 2) = 0
    ∧ win2_1.index t (0 : Fin 2) = t.val % 16 ∧ win2_1.index t (1 : Fin 2) = 0
    ∧ win2_2.index t (0 : Fin 2) = 0 ∧ win2_2.index t (1 : Fin 2) = t.val % 16
    ∧ win2_3.index t (0 : Fin 2) = 0 ∧ win2_3.index t (1 : Fin 2) = 0
    ∧ win2_4.index t (0 : Fin 1) = 0
    ∧ win2_5.index t (0 : Fin 2) = t.val / 16 ∧ win2_5.index t (1 : Fin 2) = 0 :=
  (by decide +kernel : ∀ t : Fin grid2.N, _)

variable (V : (c : Dev nD) → (b : Ref sig .tc) → Buf (Elt Ideal) ((c : Thread nD τ).loc b))

/-- A row of a block of 2048 rows, as a row of the whole array of 8192. -/
def qRow (t : Fin cfg2.N) (p : Fin 2048) : Fin 8192 :=
  ⟨2048 * (t.val / 16) + p.val, by have := t.isLt; have := p.isLt; have : cfg2.N = 64 := N_2; omega⟩

/-- A row of a block of 1024 exemplars, as a row of the whole array of 16384. -/
def eRow (t : Fin cfg2.N) (j : Fin 1024) : Fin 16384 :=
  ⟨1024 * (t.val % 16) + j.val, by have := j.isLt; omega⟩

theorem blk2_0_apply (c : Dev nD) (t : Fin cfg2.N) (p : Fin 2048) (q : Fin 512) :
    iblk2 V c 0 t (ix2 p q) = (V c main_v5 : S8192x512.Idx → EReal) (ix2 (qRow t p) q) := by
  obtain ⟨e0, e1, -⟩ := idx_facts2 t
  show (V c main_v5 : S8192x512.Idx → EReal) (((cfg2.win 0).blk t).view.emb (ix2 p q)) = _
  refine congrArg (V c main_v5 : S8192x512.Idx → EReal) (funext fun a => Fin.ext ?_)
  match a with
  | ⟨0, _⟩ => show win2_0.index t (0 : Fin 2) * 2048 + 1 * p.val = 2048 * (t.val / 16) + p.val; omega
  | ⟨1, _⟩ => show win2_0.index t (1 : Fin 2) * 512 + 1 * q.val = q.val; omega

theorem blk2_1_apply (c : Dev nD) (t : Fin cfg2.N) (j : Fin 1024) (q : Fin 512) :
    iblk2 V c 1 t (ix2 j q) = (V c main_v6 : S16384x512.Idx → EReal) (ix2 (eRow t j) q) := by
  obtain ⟨-, -, e0, e1, -⟩ := idx_facts2 t
  show (V c main_v6 : S16384x512.Idx → EReal) (((cfg2.win 1).blk t).view.emb (ix2 j q)) = _
  refine congrArg (V c main_v6 : S16384x512.Idx → EReal) (funext fun a => Fin.ext ?_)
  match a with
  | ⟨0, _⟩ => show win2_1.index t (0 : Fin 2) * 1024 + 1 * j.val = 1024 * (t.val % 16) + j.val; omega
  | ⟨1, _⟩ => show win2_1.index t (1 : Fin 2) * 512 + 1 * q.val = q.val; omega

theorem blk2_2_apply (c : Dev nD) (t : Fin cfg2.N) (u : Fin 1) (j : Fin 1024) :
    iblk2 V c 2 t (ix2 u j) = (V c main_v4 : S1x16384.Idx → EReal) (ix2 (0 : Fin 1) (eRow t j)) := by
  obtain ⟨-, -, -, -, e0, e1, -⟩ := idx_facts2 t
  show (V c main_v4 : S1x16384.Idx → EReal) (((cfg2.win 2).blk t).view.emb (ix2 u j)) = _
  refine congrArg (V c main_v4 : S1x16384.Idx → EReal) (funext fun a => Fin.ext ?_)
  match a with
  | ⟨0, _⟩ => show win2_2.index t (0 : Fin 2) * 1 + 1 * u.val = 0; have := u.isLt; omega
  | ⟨1, _⟩ => show win2_2.index t (1 : Fin 2) * 1024 + 1 * j.val = 1024 * (t.val % 16) + j.val; omega

theorem blk2_3_apply (c : Dev nD) (t : Fin cfg2.N) :
    iblk2 V c 3 t (ix2 (0 : Fin 1) (0 : Fin 1)) = (V c main_arg5 : S1x1.Idx → EReal) (ix2 (0 : Fin 1) (0 : Fin 1)) := by
  obtain ⟨-, -, -, -, -, -, e0, e1, -⟩ := idx_facts2 t
  show (V c main_arg5 : S1x1.Idx → EReal) (((cfg2.win 3).blk t).view.emb (ix2 (0 : Fin 1) (0 : Fin 1))) = _
  refine congrArg (V c main_arg5 : S1x1.Idx → EReal) (funext fun a => Fin.ext ?_)
  match a with
  | ⟨0, _⟩ => show win2_3.index t (0 : Fin 2) * 1 + 1 * 0 = 0; omega
  | ⟨1, _⟩ => show win2_3.index t (1 : Fin 2) * 1 + 1 * 0 = 0; omega

theorem blk2_4_apply (c : Dev nD) (t : Fin cfg2.N) :
    iblk2 V c 4 t (ix1 (0 : Fin 1)) = (V c main_arg6 : S1.Idx → EReal) (ix1 (0 : Fin 1)) := by
  obtain ⟨-, -, -, -, -, -, -, -, e0, -⟩ := idx_facts2 t
  show (V c main_arg6 : S1.Idx → EReal) (((cfg2.win 4).blk t).view.emb (ix1 (0 : Fin 1))) = _
  refine congrArg (V c main_arg6 : S1.Idx → EReal) (funext fun a => Fin.ext ?_)
  match a with
  | ⟨0, _⟩ => show win2_4.index t (0 : Fin 1) * 1 + 1 * 0 = 0; omega

end Cert.KernelIdeal.Val

end
-- ==== Proof.KI.Sums.lean ====
/-
  A sum over 16384 exemplars taken in the order the third launch takes it: 16 blocks of 1024 exemplars, each block
  eight groups of 128 lanes, and the lanes outermost. Only commutativity and associativity of addition are used.
-/
import Mathlib.Algebra.BigOperators.Fin
import Mathlib.Logic.Equiv.Fin.Basic

open scoped BigOperators

namespace Cert.Minerva

/-- A sum over `n·b` indices is the sum over `n` blocks of the sum over the `b` indices of each block; index `r` of
    block `a` is `r + b·a`. -/
theorem sum_blocks {M : Type*} [AddCommMonoid M] (n b : ℕ) (f : Fin (n * b) → M) :
    ∑ i : Fin (n * b), f i = ∑ a : Fin n, ∑ r : Fin b, f (finProdFinEquiv (a, r)) := by
  rw [← Equiv.sum_comp finProdFinEquiv f, Fintype.sum_prod_type]

/-- The exemplar at lane `l` of group `g` of block `k`. -/
def exemplar (k : Fin 16) (g : Fin 8) (l : Fin 128) : Fin 16384 :=
  ⟨1024 * k.val + (g.val * 128 + l.val), by have := k.isLt; have := g.isLt; have := l.isLt; omega⟩

/-- The sum over all exemplars, lanes outermost, then blocks, then groups. -/
theorem sum_exemplars {M : Type*} [AddCommMonoid M] (f : Fin 16384 → M) :
    ∑ m : Fin 16384, f m = ∑ l : Fin 128, ∑ k : Fin 16, ∑ g : Fin 8, f (exemplar k g l) := by
  have h1 : ∑ m : Fin 16384, f m = ∑ k : Fin 16, ∑ j : Fin 1024, f ⟨1024 * k.val + j.val, by have := k.isLt; have := j.isLt; omega⟩ := by
    refine (sum_blocks 16 1024 f).trans ?_
    refine Finset.sum_congr rfl fun k _ => Finset.sum_congr rfl fun j _ => congrArg f (Fin.ext ?_)
    show j.val + 1024 * k.val = 1024 * k.val + j.val
    omega
  have h2 : ∀ k : Fin 16, ∑ j : Fin 1024, f ⟨1024 * k.val + j.val, by have := k.isLt; have := j.isLt; omega⟩
      = ∑ g : Fin 8, ∑ l : Fin 128, f (exemplar k g l) := by
    intro k
    refine (sum_blocks 8 128 (fun j : Fin (8 * 128) => f ⟨1024 * k.val + j.val, by have := k.isLt; have := j.isLt; omega⟩)).trans ?_
    refine Finset.sum_congr rfl fun g _ => Finset.sum_congr rfl fun l _ => congrArg f (Fin.ext ?_)
    show 1024 * k.val + (l.val + 128 * g.val) = 1024 * k.val + (g.val * 128 + l.val)
    omega
  rw [h1]
  simp only [h2]
  refine (Finset.sum_congr rfl fun k _ => Finset.sum_comm).trans ?_
  exact Finset.sum_comm

end Cert.Minerva
-- ==== Proof.KI.AttnMath.lean ====
/-
  The echo of a query row as the third launch accumulates it.

  For query row `n` and lane `l`, after the step `r` of a row block the running array holds the terms
  `cos(n,m)³·lab(m)` of the exemplars `m` at lane `l` of every group of the blocks `0 … r`. After the last step (r = 15)
  the 128 lanes together hold every exemplar exactly once, so their sum is the echo.
-/
import proofs.«154334_j37211596652568_2_alg».proof.Proof.KI.Spec
import proofs.«154334_j37211596652568_2_alg».proof.Proof.KI.Sums

noncomputable section

namespace Cert.KernelIdeal.Val

open Idealize.ShloMosaic Idealize.ShloMosaic.ValueIdx
open scoped BigOperators

variable (XN : (⟨2, ![8192, 512]⟩ : Shape).Idx → EReal) (DN : (⟨2, ![16384, 512]⟩ : Shape).Idx → EReal)
  (LAB : (⟨2, ![1, 16384]⟩ : Shape).Idx → EReal)

/-- One term of the echo of query row `n`: the cube of its cosine with exemplar `m`, weighted by the label. -/
def echoTerm (n : Fin 8192) (m : Fin 16384) : EReal :=
  (Cert.Minerva.cosine XN DN n m * Cert.Minerva.cosine XN DN n m * Cert.Minerva.cosine XN DN n m) * LAB (ix2 0 m)

/-- The exemplar at lane `l` of group `g` of block `k`, for any natural `k` (reduced modulo the array for `k ≥ 16`,
    which no step uses). -/
def exemplarN (k : ℕ) (g : Fin 8) (l : Fin 128) : Fin 16384 :=
  ⟨(1024 * k + (g.val * 128 + l.val)) % 16384, Nat.mod_lt _ (by norm_num)⟩

theorem exemplarN_of_lt (k : Fin 16) (g : Fin 8) (l : Fin 128) : exemplarN k.val g l = Cert.Minerva.exemplar k g l := by
  apply Fin.ext
  show (1024 * k.val + (g.val * 128 + l.val)) % 16384 = 1024 * k.val + (g.val * 128 + l.val)
  have := k.isLt; have := g.isLt; have := l.isLt
  exact Nat.mod_eq_of_lt (by omega)

/-- What the running array holds at `(n, l)` after step `r` of a row block. -/
def partialEcho (n : Fin 8192) (l : Fin 128) (r : ℕ) : EReal :=
  ∑ k ∈ Finset.range (r + 1), ∑ g : Fin 8, echoTerm XN DN LAB n (exemplarN k g l)

theorem partialEcho_zero (n : Fin 8192) (l : Fin 128) :
    partialEcho XN DN LAB n l 0 = ∑ g : Fin 8, echoTerm XN DN LAB n (exemplarN 0 g l) := by
  unfold partialEcho
  rw [Finset.sum_range_one]

theorem partialEcho_succ (n : Fin 8192) (l : Fin 128) (r : ℕ) :
    partialEcho XN DN LAB n l (r + 1)
      = partialEcho XN DN LAB n l r + ∑ g : Fin 8, echoTerm XN DN LAB n (exemplarN (r + 1) g l) := by
  unfold partialEcho
  rw [Finset.sum_range_succ]

/-- After the last step the lanes' sum is the echo: every exemplar is counted once. -/
theorem sum_partialEcho (n : Fin 8192) :
    ∑ l : Fin 128, partialEcho XN DN LAB n l 15 = Cert.Minerva.echo XN DN LAB n := by
  unfold Cert.Minerva.echo
  rw [Cert.Minerva.sum_exemplars (fun m => (Cert.Minerva.cosine XN DN n m * Cert.Minerva.cosine XN DN n m
    * Cert.Minerva.cosine XN DN n m) * LAB (ix2 0 m))]
  refine Finset.sum_congr rfl fun l _ => ?_
  unfold partialEcho
  rw [Finset.sum_range]
  refine Finset.sum_congr rfl fun k _ => Finset.sum_congr rfl fun g _ => ?_
  unfold echoTerm
  rw [exemplarN_of_lt]

end Cert.KernelIdeal.Val

end
-- ==== Proof.KI.AttnValue.lean ====
/-
  What the third launch leaves in the result column.

  Fix the arrays the launch finds: the normalized queries `XN`, the normalized exemplars `DN`, the label row `LAB` and
  the head's `h_w`, `h_b`. Grid point `t = 16·i + k` handles query rows `2048·i …` and exemplars `1024·k …`.
  By induction on the point, after point `t` the running array holds at `(p, l)` the partial echo of query row
  `2048·i + p` over the exemplars at lane `l` of the blocks `0 … k` (it is reset when `k = 0`, and each point adds its
  block's eight terms). At `k = 15` the output block is the logistic function of (the lanes' sum) · h_w + h_b, and the
  lanes' sum is the whole echo; that block is what is written back, and the four written blocks tile the column.
-/
import proofs.«154334_j37211596652568_2_alg».proof.Proof.KI.AttnPieces
import proofs.«154334_j37211596652568_2_alg».proof.Proof.KI.AttnPayload
import proofs.«154334_j37211596652568_2_alg».proof.Proof.KI.AttnBlocks
import proofs.«154334_j37211596652568_2_alg».proof.Proof.KI.AttnMath
import proofs.«154334_j37211596652568_2_alg».proof.Proof.KI.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the launch finds, as functions of an index. -/
abbrev XN (c : Dev nD) : S8192x512.Idx → EReal := V c main_v5
abbrev DN (c : Dev nD) : S16384x512.Idx → EReal := V c main_v6
abbrev LAB (c : Dev nD) : S1x16384.Idx → EReal := V c main_v4

/-- A term of a point's block is a term of the echo: the block's rows are rows of the arrays. -/
theorem blockTerm_eq (c : Dev nD) (t : Fin cfg2.N) (p : Fin 2048) (j : Fin 1024) :
    blockTerm (iblk2 V c 0 t) (iblk2 V c 1 t) (iblk2 V c 2 t) p j
      = echoTerm (XN V c) (DN V c) (LAB V c) (qRow t p) (eRow t j) := by
  unfold blockTerm blockCos echoTerm Cert.Minerva.cosine
  simp only [blk2_0_apply, blk2_1_apply, blk2_2_apply]

/-- The exemplar of a block at lane `l` of group `g`, among all exemplars. -/
theorem eRow_lane (t : Fin cfg2.N) (g : Fin 8) (l : Fin 128) : eRow t (lane g l) = exemplarN (t.val % 16) g l := by
  apply Fin.ext
  show 1024 * (t.val % 16) + (g.val * 128 + l.val) = (1024 * (t.val % 16) + (g.val * 128 + l.val)) % 16384
  have := g.isLt; have := l.isLt
  omega

/-- The point's eight terms of lane `l`, as terms of the echo. -/
theorem blockTerms_eq (c : Dev nD) (t : Fin cfg2.N) (p : Fin 2048) (l : Fin 128) :
    ∑ g : Fin 8, blockTerm (iblk2 V c 0 t) (iblk2 V c 1 t) (iblk2 V c 2 t) p (lane g l)
      = ∑ g : Fin 8, echoTerm (XN V c) (DN V c) (LAB V c) (qRow t p) (exemplarN (t.val % 16) g l) :=
  Finset.sum_congr rfl fun g _ => by rw [blockTerm_eq, eRow_lane]

/-- The first point of a row block: the running array is reset, then holds the first block's terms. -/
theorem scratch_first (c : Dev nD) (t : Fin cfg2.N) (h0 : t.val % 16 = 0) (p : Fin 2048) (l : Fin 128) :
    (outsAt2 V c t.val t.isLt).2 (ix2 p l) = partialEcho (XN V c) (DN V c) (LAB V c) (qRow t p) l (t.val % 16) := by
  refine (congrFun (congrArg Prod.snd (outsAt2_A V c t h0 (by omega))) (ix2 p l)).trans ?_
  dsimp only
  rw [sout2_A_eq, k2_pay2_apply, k2_pay1_apply, zero_add, blockTerms_eq, h0, partialEcho_zero]

/-- A later point of a row block: the running array gains this block's terms. -/
theorem scratch_next (c : Dev nD) (n : ℕ) (hn : n + 1 < cfg2.N) (h0 : ¬(n + 1) % 16 = 0)
    (ih : ∀ (p : Fin 2048) (l : Fin 128), (outsAt2 V c n (Nat.lt_of_succ_lt hn)).2 (ix2 p l)
      = partialEcho (XN V c) (DN V c) (LAB V c) (qRow ⟨n, Nat.lt_of_succ_lt hn⟩ p) l (n % 16))
    (p : Fin 2048) (l : Fin 128) :
    (outsAt2 V c (n + 1) hn).2 (ix2 p l)
      = partialEcho (XN V c) (DN V c) (LAB V c) (qRow ⟨n + 1, hn⟩ p) l ((n + 1) % 16) := by
  have hq : qRow ⟨n, Nat.lt_of_succ_lt hn⟩ p = qRow ⟨n + 1, hn⟩ p := by
    apply Fin.ext
    show 2048 * (n / 16) + p.val = 2048 * ((n + 1) / 16) + p.val
    omega
  have hr : (n + 1) % 16 = n % 16 + 1 := by omega
  have step : ∀ prev : Vec Ideal S2048x128 .f32, (∀ p l, prev (ix2 p l)
        = partialEcho (XN V c) (DN V c) (LAB V c) (qRow ⟨n, Nat.lt_of_succ_lt hn⟩ p) l (n % 16)) →
      k2_pay2 (F := Ideal) (iblk2 V c 0 ⟨n + 1, hn⟩) (iblk2 V c 1 ⟨n + 1, hn⟩) (iblk2 V c 2 ⟨n + 1, hn⟩) prev (ix2 p l)
        = partialEcho (XN V c) (DN V c) (LAB V c) (qRow ⟨n + 1, hn⟩ p) l ((n + 1) % 16) := by
    intro prev hprev
    rw [k2_pay2_apply, hprev p l, blockTerms_eq, hq]
    show _ + ∑ g : Fin 8, echoTerm _ _ _ _ (exemplarN ((n + 1) % 16) g l) = _
    rw [hr, partialEcho_succ]
  by_cases h1 : (n + 1) % 16 = 15
  · refine (congrFun (congrArg Prod.snd (outsAt2_C V c ⟨n + 1, hn⟩ h0 h1)) (ix2 p l)).trans ?_
    dsimp only
    rw [sout2_C_eq]
    exact step _ ih
  · refine (congrFun (congrArg Prod.snd (outsAt2_B V c ⟨n + 1, hn⟩ h0 h1)) (ix2 p l)).trans ?_
    dsimp only
    rw [sout2_B_eq]
    exact step _ ih

/-- THE RUNNING ARRAY after every point. -/
theorem scratch_eq (c : Dev nD) : ∀ (n : ℕ) (hn : n < cfg2.N) (p : Fin 2048) (l : Fin 128),
    (outsAt2 V c n hn).2 (ix2 p l) = partialEcho (XN V c) (DN V c) (LAB V c) (qRow ⟨n, hn⟩ p) l (n % 16) := by
  intro n
  induction n with
  | zero => intro hn p l; exact scratch_first V c ⟨0, hn⟩ (Nat.zero_mod _) p l
  | succ n ih =>
    intro hn p l
    by_cases h0 : (n + 1) % 16 = 0
    · exact scratch_first V c ⟨n + 1, hn⟩ h0 p l
    · exact scratch_next V c n hn h0 (ih (Nat.lt_of_succ_lt hn)) p l

/-- THE OUTPUT BLOCK at the last point of a row block: the head of the whole echo of each of its rows. -/
theorem out_eq (c : Dev nD) (t : Fin cfg2.N) (h1 : t.val % 16 = 15) (p : Fin 2048) (u : Fin 1) :
    (outsAt2 V c t.val t.isLt).1 (ix2 p u)
      = Cert.Minerva.head (XN V c) (DN V c) (LAB V c) (V c main_arg5) (V c main_arg6) (ix2 (qRow t p) (0 : Fin 1)) := by
  have h0 : ¬t.val % 16 = 0 := by omega
  have hS : ∀ l : Fin 128, k2_pay2 (F := Ideal) (iblk2 V c 0 t) (iblk2 V c 1 t) (iblk2 V c 2 t)
      (outsAt2 V c (t.val - 1) (Nat.lt_of_le_of_lt (Nat.sub_le _ _) t.isLt)).2 (ix2 p l)
        = partialEcho (XN V c) (DN V c) (LAB V c) (qRow t p) l 15 := by
    intro l
    have h := (congrFun (congrArg Prod.snd (outsAt2_C V c t h0 h1)) (ix2 p l)).symm.trans (scratch_eq V c t.val t.isLt p l)
    dsimp only at h
    rw [sout2_C_eq, h1] at h
    exact h
  refine (congrFun (congrArg Prod.fst (outsAt2_C V c t h0 h1)) (ix2 p u)).trans ?_
  dsimp only
  rw [out2_C_5_eq, k2_pay3_apply]
  simp only [hS]
  rw [sum_partialEcho, blk2_3_apply, blk2_4_apply]
  rfl

/-- A buffer that holds, row by row, the rows `2048·i …` of a column, cut to the window, is that column read through
    the point's block. -/
theorem cut_eq_read (t : Fin cfg2.N) (O : Vec Ideal S2048x1 .f32) (H : S8192x1.Idx → EReal)
    (hO : ∀ (p : Fin 2048) (u : Fin 1), O (ix2 p u) = H (ix2 (qRow t p) (0 : Fin 1))) :
    (cfg2.win 5).cut (grid2.coords t) O = ((cfg2.win 5).blk t).view.read (Elt Ideal) H := by
  obtain ⟨-, -, -, -, -, -, -, -, -, e0, e1⟩ := idx_facts2 t
  funext j
  have hj0 : (j 0).val < 2048 := (j 0).isLt
  have hj1 : (j 1).val < 1 := (j 1).isLt
  have hy : (cfg2.win 5).xinj (grid2.coords t) j = ix2 (⟨(j 0).val, hj0⟩ : Fin 2048) (⟨(j 1).val, hj1⟩ : Fin 1) :=
    funext fun a => by
      match a with
      | ⟨0, _⟩ => rfl
      | ⟨1, _⟩ => rfl
  have hi : ((cfg2.win 5).blk t).view.emb j = ix2 (qRow t ⟨(j 0).val, hj0⟩) (0 : Fin 1) :=
    funext fun a => Fin.ext (by
      match a with
      | ⟨0, _⟩ => show win2_5.index t (0 : Fin 2) * 2048 + 1 * (j 0).val = 2048 * (t.val / 16) + (j 0).val; omega
      | ⟨1, _⟩ => show win2_5.index t (1 : Fin 2) * 1 + 1 * (j 1).val = 0; omega)
  show O ((cfg2.win 5).xinj (grid2.coords t) j) = H (((cfg2.win 5).blk t).view.emb j)
  rw [hy, hi]
  exact hO _ _

/-- WHAT A LAST POINT WRITES BACK is its block of the head of the echo. -/
theorem flushed2_eq (c : Dev nD) (t : Fin cfg2.N) (h1 : t.val % 16 = 15) :
    (dat2 V c).flushed 5 t = ((cfg2.win 5).blk t).view.read (Elt Ideal)
      (Cert.Minerva.head (XN V c) (DN V c) (LAB V c) (V c main_arg5) (V c main_arg6)) := by
  show (cfg2.win 5).cut (grid2.coords t) ((dat2 V c).after 5 t) = _
  rw [after2_5]
  exact cut_eq_read t _ _ (out_eq V c t h1)

/-- An index of the column is in point `t`'s block iff each coordinate is in the block's range on its axis. -/
theorem mem_blk2_5 (t : Fin cfg2.N) (i : S8192x1.Idx) :
    i ∈ ((cfg2.win 5).blk t).view.set ↔ ∀ a : Fin 2, win2_5.index t a * S2048x1.size a ≤ (i a).val
      ∧ (i a).val < win2_5.index t a * S2048x1.size a + S2048x1.size a := by
  show i ∈ ((View.whole main_v7).slice (win2_5.rect t)).set ↔ _
  rw [View.set_slice_whole, Rect.mem_set_unit]
  exact Iff.rfl

/-- Every row of the column lies in the block written back at the last point of its row block. -/
theorem cover2_5 (i : S8192x1.Idx) :
    ∃ t : Fin cfg2.N, (cfg2.win 5).flush t = true ∧ i ∈ ((cfg2.win 5).blk t).view.set := by
  have hi0 : (i 0).val < 8192 := (i 0).isLt
  have hi1 : (i 1).val < 1 := (i 1).isLt
  have hN : cfg2.N = 64 := N_2
  refine ⟨⟨16 * ((i 0).val / 2048) + 15, by omega⟩, (flush2_5 _).mpr (by show (16 * ((i 0).val / 2048) + 15) % 16 = 15; omega), ?_⟩
  obtain ⟨-, -, -, -, -, -, -, -, -, e0, e1⟩ := idx_facts2 ⟨16 * ((i 0).val / 2048) + 15, by omega⟩
  rw [mem_blk2_5]
  intro a
  match a with
  | ⟨0, _⟩ =>
    show win2_5.index _ (0 : Fin 2) * 2048 ≤ (i 0).val ∧ (i 0).val < win2_5.index _ (0 : Fin 2) * 2048 + 2048
    rw [e0]
    show (16 * ((i 0).val / 2048) + 15) / 16 * 2048 ≤ (i 0).val ∧ (i 0).val < (16 * ((i 0).val / 2048) + 15) / 16 * 2048 + 2048
    omega
  | ⟨1, _⟩ =>
    show win2_5.index _ (1 : Fin 2) * 1 ≤ (i 1).val ∧ (i 1).val < win2_5.index _ (1 : Fin 2) * 1 + 1
    rw [e1]
    omega

/-- THE RESULT COLUMN after the third launch: the head of the echo, of the arrays the launch found. -/
theorem final2 (c : Dev nD) :
    (dat2 V c).arrAt 5 cfg2.N
      = Cert.Minerva.head (V c main_v5) (V c main_v6) (V c main_v4) (V c main_arg5) (V c main_arg6) :=
  (dat2 V c).arrAt_eq_of_cover 5 _ (fun t hf => flushed2_eq V c t ((flush2_5 t).mp hf)) cover2_5

end Cert.KernelIdeal.Val

end
-- ==== Proof.KI.HostPrefix.lean ====
/-
  The host operations before the first launch: the labels `r·2 − 1`, reshaped from a column of 16384 to one row.
  Entry `(0, m)` of the row is entry `(m, 0)` of the column (both sit at position `m` in row-major order).
-/
import proofs.«154334_j37211596652568_2_alg».proof.Proof.Gen.KernelIdeal.Launch
import proofs.«154334_j37211596652568_2_alg».proof.Proof.KI.Spec
import Idealize.ShloMosaic.Lib.StableHlo.Run
import Idealize.ShloMosaic.Lib.Pipeline.Value
import Idealize.ShloMosaic.Lib.ValueIdx

noncomputable section

namespace Cert.KernelIdeal.Val

open Cert.KernelIdeal Cert.KernelIdeal.Gen
open Idealize.ShloMosaic Idealize.ShloMosaic.TcCoe Idealize.ShloMosaic.ValueIdx Idealize.SL.Sem Idealize.ShloMosaic.StableHlo

/-- After the host operations the row buffer holds the labels of the column the run started with. -/
theorem labelRow_eq (W : Valuation τ sig (Elt Ideal)) :
    (StableHlo.after (hostOps0 (F := Ideal)) W (Proc.devRef .tc main_v4) : S1x16384.Idx → EReal)
      = Cert.Minerva.labelRow (W (Proc.devRef .tc main_arg2)) := by
  dsimp only [hostOps0]
  after_results
  funext j
  obtain ⟨u, m, rfl⟩ : ∃ (u : Fin 1) (m : Fin 16384), j = ix2 u m := ⟨j 0, j 1, eq_ix2 j⟩
  show shapeCast S1x16384 _ shapeCasts_S16384x1_S1x16384 (ix2 u m) = _
  refine (shapeCast_apply _ shapeCasts_S16384x1_S1x16384 (ix2 u m) (ix2 m (0 : Fin 1)) ?_).trans ?_
  · rw [Shape.rowMajor_val_two, Shape.rowMajor_val_two]
    show m.val * 1 + 0 = u.val * 16384 + m.val
    have := u.isLt
    omega
  rfl

end Cert.KernelIdeal.Val

end
-- ==== Proof.KI.KernelValue.lean ====
/-
  The array the kernel leaves in its result buffer, as a function of the seven argument arrays.

  The third launch ends with its output array at the head `σ(echo · h_w + h_b)` of what it found in its input arrays:
  the normalized query rows, the normalized exemplar rows, the label row, and the head's weight and bias. The first two
  are what the first and the second launch left — the normalized embeddings of the query and the exemplar arguments
  under the shared weights and bias —, the label row is what the host operations before the launches made of the
  label argument, `r·2 − 1` laid out as one row, and no launch writes an argument. Substituting, the result is the
  specification `G` of the arguments.
-/
import proofs.«154334_j37211596652568_2_alg».proof.Proof.KI.Run
import proofs.«154334_j37211596652568_2_alg».proof.Proof.KI.EmbedValue
import proofs.«154334_j37211596652568_2_alg».proof.Proof.KI.AttnValue
import proofs.«154334_j37211596652568_2_alg».proof.Proof.KI.HostPrefix
import proofs.«154334_j37211596652568_2_alg».proof.Proof.KI.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The label row the third launch reads is the label map of the label argument. -/
theorem labels_at_launch (c : Dev nD) :
    (Fr.V1 m ρ c main_v4 : S1x16384.Idx → EReal) = Cert.Minerva.labelRow (m ((c.tc : Thread nD τ).loc main_arg2)) :=
  labelRow_eq (Fr.W0 m ρ c)

/-- THE KERNEL'S RESULT is the specification of the argument arrays. -/
theorem kernel_value (c : Dev nD) :
    (Fr.dat2 (F := Ideal) (Fr.V3 m ρ) c).arrAt 5 cfg2.N
      = Cert.Minerva.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  rw [final2 (Fr.V3 m ρ) c, Fr.V3_main_v5, Fr.V3_main_v6, Fr.V3_main_v4, Fr.V3_main_arg5, Fr.V3_main_arg6,
    final0 (Fr.V1 m ρ) c, final1 (Fr.V2 m ρ) c, Fr.V1_main_arg0, Fr.V1_main_arg3, Fr.V1_main_arg4,
    Fr.V2_main_arg1, Fr.V2_main_arg3, Fr.V2_main_arg4, labels_at_launch]
  rfl

end Cert.KernelIdeal.Val

end
-- ==== Proof.KI.Laws.lean ====
/-
  Three laws of the operations on the extended reals, for the words and the expressions the reference program spells.

  The word of `3.0` denotes the extended real `3`; the "power with sign" `|a|³ · sign a` is the cube `a · a · a` at EVERY
  extended real (at `±∞` both sides are the infinity of `a`'s sign, at a real `r` it is `|r|³ · sign r = r³`); and the
  expression `1 / (1 + e^(−x))`, with the word of `1.0` for each `1`, is the logistic function by its definition.
-/
import Idealize.ShloMosaic.PureOps.Ideal

noncomputable section

namespace Cert.Minerva

open Idealize.ShloMosaic

/-- The word of `1.0` denotes `1`. -/
theorem ofBits_one : Ideal.ofBits .f32 0x3F800000#32 = (1 : EReal) := by
  simp [Ideal.ofBits, Ideal.ieee, -EReal.coe_mul]; norm_num

/-- The word of `3.0` denotes `3`. -/
theorem ofBits_three : Ideal.ofBits .f32 0x40400000#32 = (3 : EReal) := by
  simp [Ideal.ofBits, Ideal.ieee, -EReal.coe_mul]; norm_num; rfl

/-- On the reals: `|r|³ · sign r = r · r · r`. -/
theorem abs_rpow_three_mul_sign (r : ℝ) : Real.rpow (max r (-r)) 3 * (SignType.sign r : ℝ) = r * r * r := by
  have h3 : (3 : ℝ) = ((3 : ℕ) : ℝ) := by norm_num
  rw [Real.rpow_eq_pow, h3, Real.rpow_natCast]
  rcases lt_trichotomy r 0 with h | h | h
  · rw [sign_neg h, max_eq_right (by linarith)]; simp; ring
  · subst h; simp
  · rw [sign_pos h, max_eq_left (by linarith)]; simp; ring

/-- `|a|³ · sign a = a · a · a` at every extended real, the infinities included. -/
theorem pow_abs_three_mul_sign (a : EReal) :
    Ideal.pow (max a (-a)) (Ideal.ofBits .f32 0x40400000#32) * Ideal.sign a = a * a * a := by
  rw [ofBits_three]
  induction a with
  | bot =>
    have h : max (⊥ : EReal) (-⊥) = ⊤ := by simp
    rw [h, Ideal.pow_top, if_pos (by norm_num), Ideal.sign_bot]
    simp
  | top =>
    have h : max (⊤ : EReal) (-⊤) = ⊤ := by simp
    rw [h, Ideal.pow_top, if_pos (by norm_num), Ideal.sign_top]
    simp
  | coe r =>
    have h : max (r : EReal) (-(r : EReal)) = ((max r (-r) : ℝ) : EReal) := by
      rw [← EReal.coe_neg]; exact (EReal.coe_strictMono.monotone.map_max).symm
    have h3 : (3 : EReal) = ((3 : ℝ) : EReal) := by norm_cast
    rw [h, h3, Ideal.pow_coe_coe, Ideal.sign_coe, ← EReal.coe_mul, abs_rpow_three_mul_sign, EReal.coe_mul, EReal.coe_mul]

/-- `1 / (1 + e^(−x))`, each `1` the word of `1.0`, is the logistic function. -/
theorem logistic_eq (x : EReal) :
    Ideal.div (Ideal.ofBits .f32 0x3F800000#32) (Ideal.ofBits .f32 0x3F800000#32 + Ideal.exp (-x)) = Ideal.logistic x := by
  rw [ofBits_one]; rfl

end Cert.Minerva

end
-- ==== Proof.KI.RefValue.lean ====
/-
  The reference program computes the specification.

  The reference's last stage, read index by index through its operations, is the function `Cert.Minerva.G` of the seven
  argument arrays. The chain is cut at the stages the specification names: the linear embedding of a row (a contraction
  over the 768 features against the transposed weights, plus the bias), the row scaled to unit length (the sum of squares
  starts from the zero word, the length is floored at the word of `1e-12`), the labels `r·2 − 1`, the cosine of a query
  row and an exemplar row (a contraction over the 512 coordinates against the transposed exemplars), the cube written as
  `|a|³ · sign a`, the echo (a contraction over the 16384 exemplars against the label column), and the logistic function
  written as `1 / (1 + e^(−z))` of the echo times the one head weight (a contraction over one index) plus the head bias.
  A transpose only renames indices, so each contraction is the sum the specification writes.
-/
import proofs.«154334_j37211596652568_2_alg».proof.Proof.Gen.ReferenceIdeal.Read
import proofs.«154334_j37211596652568_2_alg».proof.Proof.KI.Spec
import proofs.«154334_j37211596652568_2_alg».proof.Proof.KI.Laws

noncomputable section

namespace Cert.ReferenceIdeal.RefValue

open Cert.ReferenceIdeal Cert.ReferenceIdeal.Read Idealize.ShloMosaic Idealize.ShloMosaic.ValueIdx

/-! ### The linear embedding -/

/-- Stage %8 at `(p, q)`: `Σ_d x(p,d)·w(q,d) + b(q)` for the query rows. -/
theorem linX_eq (x0 : (⟨S8192x768, .f32⟩ : BufTy).Contents (Elt Ideal)) (x3 : (⟨S512x768, .f32⟩ : BufTy).Contents (Elt Ideal))
    (x4 : (⟨S512, .f32⟩ : BufTy).Contents (Elt Ideal)) (p : Fin 8192) (q : Fin 512) :
    val_main_v8 (F := Ideal) x0 x3 x4 (ix2 p q) = Minerva.lin x0 x3 x4 p q := by
  have e1 : ∀ k : Fin 768, lidx_main_v5 (ix2 p q) k = ix2 p k := fun k =>
    funext fun a => Fin.ext (by match a with | ⟨0, _⟩ => rfl | ⟨1, _⟩ => rfl)
  have e2 : ∀ k : Fin 768, idx_main_v4 (ridx_main_v5 (ix2 p q) k) = ix2 q k := fun k =>
    funext fun a => Fin.ext (by match a with | ⟨0, _⟩ => rfl | ⟨1, _⟩ => rfl)
  have e3 : idx_main_v6 (idx_main_v7 (ix2 p q)) = ix1 q :=
    funext fun a => Fin.ext (by match a with | ⟨0, _⟩ => rfl)
  rw [val_main_v8_apply, val_main_v5_apply, val_main_v7_apply, val_main_v6_apply, e3]
  simp only [val_main_v4_apply, e1, e2, Ideal.addf_def]
  rfl

/-- Stage %13 at `(p, q)`: the same for the exemplar rows. -/
theorem linD_eq (x1 : (⟨S16384x768, .f32⟩ : BufTy).Contents (Elt Ideal)) (x3 : (⟨S512x768, .f32⟩ : BufTy).Contents (Elt Ideal))
    (x4 : (⟨S512, .f32⟩ : BufTy).Contents (Elt Ideal)) (p : Fin 16384) (q : Fin 512) :
    val_main_v13 (F := Ideal) x1 x3 x4 (ix2 p q) = Minerva.lin x1 x3 x4 p q := by
  have e1 : ∀ k : Fin 768, lidx_main_v10 (ix2 p q) k = ix2 p k := fun k =>
    funext fun a => Fin.ext (by match a with | ⟨0, _⟩ => rfl | ⟨1, _⟩ => rfl)
  have e2 : ∀ k : Fin 768, idx_main_v9 (ridx_main_v10 (ix2 p q) k) = ix2 q k := fun k =>
    funext fun a => Fin.ext (by match a with | ⟨0, _⟩ => rfl | ⟨1, _⟩ => rfl)
  have e3 : idx_main_v11 (idx_main_v12 (ix2 p q)) = ix1 q :=
    funext fun a => Fin.ext (by match a with | ⟨0, _⟩ => rfl)
  rw [val_main_v13_apply, val_main_v10_apply, val_main_v12_apply, val_main_v11_apply, e3]
  simp only [val_main_v9_apply, e1, e2, Ideal.addf_def]
  rfl

/-! ### The rows scaled to unit length -/

/-- Stage %21: the normalized query embedding. -/
theorem embX_eq (x0 : (⟨S8192x768, .f32⟩ : BufTy).Contents (Elt Ideal)) (x3 : (⟨S512x768, .f32⟩ : BufTy).Contents (Elt Ideal))
    (x4 : (⟨S512, .f32⟩ : BufTy).Contents (Elt Ideal)) :
    val_main_v21 (F := Ideal) x0 x3 x4 = Minerva.embArr x0 x3 x4 := by
  funext i
  obtain ⟨p, q, rfl⟩ : ∃ (p : Fin 8192) (q : Fin 512), i = ix2 p q := ⟨i 0, i 1, eq_ix2 i⟩
  have e : ∀ k : Fin 512, idx_main_v15 (idx_main_v16 (idx_main_v20 (ix2 p q))) k = ix2 p k := fun k =>
    funext fun a => Fin.ext (by match a with | ⟨0, _⟩ => rfl | ⟨1, _⟩ => rfl)
  rw [val_main_v21_apply, val_main_v20_apply, val_main_v19_apply, val_main_v17_apply, val_main_v16_apply,
    val_main_v15_apply, val_main_v18_apply, val_main_cst_2_apply, val_main_cst_1_apply, linX_eq]
  simp only [val_main_v14_apply, e, linX_eq, Ideal.hostDivf_def, Ideal.maximumf_def, Ideal.hostUnary_sqrt_def,
    Ideal.mulf_def, Ideal.ofBits_def, Ideal.ofBits_zero_f32, zero_add]
  rfl

/-- Stage %29: the normalized exemplar embedding. -/
theorem embD_eq (x1 : (⟨S16384x768, .f32⟩ : BufTy).Contents (Elt Ideal)) (x3 : (⟨S512x768, .f32⟩ : BufTy).Contents (Elt Ideal))
    (x4 : (⟨S512, .f32⟩ : BufTy).Contents (Elt Ideal)) :
    val_main_v29 (F := Ideal) x1 x3 x4 = Minerva.embArr x1 x3 x4 := by
  funext i
  obtain ⟨p, q, rfl⟩ : ∃ (p : Fin 16384) (q : Fin 512), i = ix2 p q := ⟨i 0, i 1, eq_ix2 i⟩
  have e : ∀ k : Fin 512, idx_main_v23 (idx_main_v24 (idx_main_v28 (ix2 p q))) k = ix2 p k := fun k =>
    funext fun a => Fin.ext (by match a with | ⟨0, _⟩ => rfl | ⟨1, _⟩ => rfl)
  rw [val_main_v29_apply, val_main_v28_apply, val_main_v27_apply, val_main_v25_apply, val_main_v24_apply,
    val_main_v23_apply, val_main_v26_apply, val_main_cst_4_apply, val_main_cst_3_apply, linD_eq]
  simp only [val_main_v22_apply, e, linD_eq, Ideal.hostDivf_def, Ideal.maximumf_def, Ideal.hostUnary_sqrt_def,
    Ideal.mulf_def, Ideal.ofBits_def, Ideal.ofBits_zero_f32, zero_add]
  rfl

/-! ### The labels -/

/-- Stage %3 at `(m, 0)`: `r(m)·2 − 1`. -/
theorem label_eq (x2 : (⟨S16384x1, .f32⟩ : BufTy).Contents (Elt Ideal)) (m : Fin 16384) :
    val_main_v3 (F := Ideal) x2 (ix2 m 0) = Minerva.label x2 m := by
  rw [val_main_v3_apply, val_main_v1_apply, val_main_v0_apply, val_main_cst_apply, val_main_v2_apply, val_main_cst_0_apply]
  simp only [Ideal.subf_def, Ideal.mulf_def, Ideal.ofBits_def]
  rfl

/-! ### The cosines, their cubes, and the echo -/

/-- Stage %31 at `(p, m)`: the cosine of query row `p` and exemplar row `m`. -/
theorem cosine_eq (x0 : (⟨S8192x768, .f32⟩ : BufTy).Contents (Elt Ideal)) (x1 : (⟨S16384x768, .f32⟩ : BufTy).Contents (Elt Ideal))
    (x3 : (⟨S512x768, .f32⟩ : BufTy).Contents (Elt Ideal)) (x4 : (⟨S512, .f32⟩ : BufTy).Contents (Elt Ideal))
    (p : Fin 8192) (m : Fin 16384) :
    val_main_v31 (F := Ideal) x0 x1 x3 x4 (ix2 p m)
      = Minerva.cosine (Minerva.embArr x0 x3 x4) (Minerva.embArr x1 x3 x4) p m := by
  have e1 : ∀ k : Fin 512, lidx_main_v31 (ix2 p m) k = ix2 p k := fun k =>
    funext fun a => Fin.ext (by match a with | ⟨0, _⟩ => rfl | ⟨1, _⟩ => rfl)
  have e2 : ∀ k : Fin 512, idx_main_v30 (ridx_main_v31 (ix2 p m) k) = ix2 m k := fun k =>
    funext fun a => Fin.ext (by match a with | ⟨0, _⟩ => rfl | ⟨1, _⟩ => rfl)
  rw [val_main_v31_apply]
  simp only [val_main_v30_apply, e1, e2, embX_eq, embD_eq]
  rfl

/-- Stage %36 at `(p, m)`: `|a|³ · sign a` is the cube of the cosine. -/
theorem cube_eq (x0 : (⟨S8192x768, .f32⟩ : BufTy).Contents (Elt Ideal)) (x1 : (⟨S16384x768, .f32⟩ : BufTy).Contents (Elt Ideal))
    (x3 : (⟨S512x768, .f32⟩ : BufTy).Contents (Elt Ideal)) (x4 : (⟨S512, .f32⟩ : BufTy).Contents (Elt Ideal))
    (p : Fin 8192) (m : Fin 16384) :
    val_main_v36 (F := Ideal) x0 x1 x3 x4 (ix2 p m)
      = Minerva.cosine (Minerva.embArr x0 x3 x4) (Minerva.embArr x1 x3 x4) p m
        * Minerva.cosine (Minerva.embArr x0 x3 x4) (Minerva.embArr x1 x3 x4) p m
        * Minerva.cosine (Minerva.embArr x0 x3 x4) (Minerva.embArr x1 x3 x4) p m := by
  rw [val_main_v36_apply, val_main_v34_apply, val_main_v32_apply, val_main_v33_apply, val_main_cst_5_apply,
    val_main_v35_apply, cosine_eq]
  simp only [Ideal.mulf_def, Ideal.hostPowf_def, Ideal.hostAbsf_def, Ideal.absf_def, Ideal.hostUnary_sign_def, Ideal.ofBits_def]
  exact Minerva.pow_abs_three_mul_sign _

/-- Stage %37 at `(p, 0)`: the echo of query row `p`. -/
theorem echo_eq (x0 : (⟨S8192x768, .f32⟩ : BufTy).Contents (Elt Ideal)) (x1 : (⟨S16384x768, .f32⟩ : BufTy).Contents (Elt Ideal))
    (x2 : (⟨S16384x1, .f32⟩ : BufTy).Contents (Elt Ideal))
    (x3 : (⟨S512x768, .f32⟩ : BufTy).Contents (Elt Ideal)) (x4 : (⟨S512, .f32⟩ : BufTy).Contents (Elt Ideal)) (p : Fin 8192) :
    val_main_v37 (F := Ideal) x0 x1 x2 x3 x4 (ix2 p 0)
      = Minerva.echo (Minerva.embArr x0 x3 x4) (Minerva.embArr x1 x3 x4) (Minerva.labelRow x2) p := by
  have e1 : ∀ k : Fin 16384, lidx_main_v37 (ix2 p 0) k = ix2 p k := fun k =>
    funext fun a => Fin.ext (by match a with | ⟨0, _⟩ => rfl | ⟨1, _⟩ => rfl)
  have e2 : ∀ k : Fin 16384, ridx_main_v37 (ix2 p 0) k = ix2 k 0 := fun k =>
    funext fun a => Fin.ext (by match a with | ⟨0, _⟩ => rfl | ⟨1, _⟩ => rfl)
  rw [val_main_v37_apply]
  simp only [e1, e2, cube_eq, label_eq]
  rfl

/-! ### The head -/

/-- THE REFERENCE'S RESULT is the specification. -/
theorem result_eq (x0 : (⟨S8192x768, .f32⟩ : BufTy).Contents (Elt Ideal)) (x1 : (⟨S16384x768, .f32⟩ : BufTy).Contents (Elt Ideal))
    (x2 : (⟨S16384x1, .f32⟩ : BufTy).Contents (Elt Ideal)) (x3 : (⟨S512x768, .f32⟩ : BufTy).Contents (Elt Ideal))
    (x4 : (⟨S512, .f32⟩ : BufTy).Contents (Elt Ideal)) (x5 : (⟨S1x1, .f32⟩ : BufTy).Contents (Elt Ideal))
    (x6 : (⟨S1, .f32⟩ : BufTy).Contents (Elt Ideal)) :
    Cert.ReferenceIdeal.Read.val_main_v48 (F := Ideal) x0 x1 x2 x3 x4 x5 x6 = Cert.Minerva.G x0 x1 x2 x3 x4 x5 x6 := by
  funext i
  obtain ⟨p, rfl⟩ : ∃ p : Fin 8192, i = ix2 p 0 :=
    ⟨i 0, (eq_ix2 i).trans (congrArg (ix2 (i 0)) (Subsingleton.elim (α := Fin 1) (i 1) 0))⟩
  have e1 : lidx_main_v39 (ix2 p 0) 0 = ix2 p 0 :=
    funext fun a => Fin.ext (by match a with | ⟨0, _⟩ => rfl | ⟨1, _⟩ => rfl)
  have e2 : idx_main_v38 (ridx_main_v39 (ix2 p 0) 0) = ix2 0 0 :=
    funext fun a => Fin.ext (by match a with | ⟨0, _⟩ => rfl | ⟨1, _⟩ => rfl)
  have e3 : idx_main_v40 (idx_main_v41 (ix2 p 0)) = ix1 0 :=
    funext fun a => Fin.ext (by match a with | ⟨0, _⟩ => rfl)
  rw [val_main_v48_apply, val_main_v47_apply, val_main_cst_7_apply, val_main_v46_apply, val_main_v45_apply,
    val_main_cst_6_apply, val_main_v44_apply, val_main_v43_apply, val_main_v42_apply, val_main_v39_apply,
    val_main_v41_apply, val_main_v40_apply, e3, Fin.sum_univ_one, val_main_v38_apply, e1, e2, echo_eq]
  simp only [Ideal.hostDivf_def, Ideal.addf_def, Ideal.hostUnary_exp_def, Ideal.hostNegf_def, Ideal.negf_def, Ideal.ofBits_def]
  exact Minerva.logistic_eq _

end Cert.ReferenceIdeal.RefValue

end
-- ==== Proof.lean ====
/-
  Both programs compute, for each of the 8192 query rows `i`, the number
  `σ(h_w · Σ_m cos(i,m)³ · (2·r(m) − 1) + h_b)`, where `cos(i,m)` is the inner product of the unit-length linear embeddings
  of query row `i` and exemplar row `m` and `σ` is the logistic function. The kernel does it by three launches — two
  that embed and normalize the rows block by block, one that accumulates the weighted cubes over the sixteen exemplar
  blocks of each query block and applies the head at the last —, the reference by whole-array operations with the cube
  written `|a|³ · sign a`. On the extended reals the two are one function `G` of the seven argument arrays: there
  `|a|³ · sign a = a · a · a` at every value, and a sum over the exemplars is the sum of its block sums.
  The word-level kernel and its reading on the extended reals run the same text, so both terminate without fault and leave
  the arguments as launched; so does the reference.
-/
import proofs.«154334_j37211596652568_2_alg».proof.Defs
import proofs.«154334_j37211596652568_2_alg».proof.Proof.Gen.Kernel
import proofs.«154334_j37211596652568_2_alg».proof.Proof.Gen.Kernel.Skeleton
import proofs.«154334_j37211596652568_2_alg».proof.Proof.Gen.Kernel.Launch
import proofs.«154334_j37211596652568_2_alg».proof.Proof.Gen.Kernel.Regions
import proofs.«154334_j37211596652568_2_alg».proof.Proof.Gen.Kernel.Points
import proofs.«154334_j37211596652568_2_alg».proof.Proof.Gen.KernelIdeal
import proofs.«154334_j37211596652568_2_alg».proof.Proof.Gen.KernelIdeal.Skeleton
import proofs.«154334_j37211596652568_2_alg».proof.Proof.Gen.KernelIdeal.Launch
import proofs.«154334_j37211596652568_2_alg».proof.Proof.Gen.KernelIdeal.Regions
import proofs.«154334_j37211596652568_2_alg».proof.Proof.Gen.KernelIdeal.Points
import proofs.«154334_j37211596652568_2_alg».proof.Proof.Gen.ReferenceIdeal
import proofs.«154334_j37211596652568_2_alg».proof.Proof.Gen.Pre_finite_inputs
import proofs.«154334_j37211596652568_2_alg».proof.Proof.Gen.ReferenceIdeal.Run
import proofs.«154334_j37211596652568_2_alg».proof.Proof.Gen.ReferenceIdeal.Read
import proofs.«154334_j37211596652568_2_alg».proof.Proof.KI.Run
import proofs.«154334_j37211596652568_2_alg».proof.Proof.K.Run
import proofs.«154334_j37211596652568_2_alg».proof.Proof.KI.KernelValue
import proofs.«154334_j37211596652568_2_alg».proof.Proof.KI.RefValue
import Idealize.ShloMosaic.Adequacy
import Idealize.ShloMosaic.Init

noncomputable section

namespace Cert.Proof

open Idealize.ShloMosaic Idealize.SL.Sem

/-- The word-level kernel terminates without fault and leaves its arguments as launched. -/
theorem frame_Kernel : Cert.frame_Kernel := fun m ρ _ => Cert.Kernel.Fr.frame (F := Bits) m ρ

/-- So does the kernel read on the extended reals. -/
theorem frame_KernelIdeal : Cert.frame_KernelIdeal := fun m ρ _ => Cert.KernelIdeal.Fr.frame (F := Ideal) m ρ

/-- So does the reference. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- On the extended reals, from memories that agree on the arguments, both programs end with the specification `G` of
    the arguments in their result arrays, and with the arguments unchanged. -/
theorem algebraic : Cert.algebraic_KernelIdeal_ReferenceIdeal := fun m ρ m' ρ' _ hagree =>
  ⟨fun c => Cert.Minerva.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    (θ_run Cert.KernelIdeal.defs _ _).mono
      (fun _ h c => ⟨(h c).1.trans (Cert.KernelIdeal.Val.kernel_value m ρ c), (h c).2⟩)
      (Cert.KernelIdeal.Fr.run_value (F := Ideal) m ρ),
    (θ_run Cert.ReferenceIdeal.defs _ _).mono
      (fun _ h c => ⟨by
        rw [(h c).1, Cert.ReferenceIdeal.Read.val_main_v48_eq, Cert.ReferenceIdeal.RefValue.result_eq,
          (hagree c).1, (hagree c).2.1, (hagree c).2.2.1, (hagree c).2.2.2.1, (hagree c).2.2.2.2.1,
          (hagree c).2.2.2.2.2.1, (hagree c).2.2.2.2.2.2], (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
